-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x10 .f32) (main_arg12 : FVec F S10 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S3x128 .f32) (main_arg7 : FVec F S3x128 .f32) (main_arg8 : FVec F S3x128 .f32) (main_arg9 : FVec F S128x64 .f32) (main_arg10 : FVec F S64 .f32) (main_arg11 : FVec F S64x10 .f32) (main_arg12 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S128x64 .f32) (main_arg10 : FVec F S64 .f32) (main_arg11 : FVec F S64x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩
abbrev S100000x1 : Shape := ⟨2, ![100000, 1]⟩
abbrev S128x1 : Shape := ⟨2, ![128, 1]⟩
abbrev S1x64 : Shape := ⟨2, ![1, 64]⟩
abbrev S1x10 : Shape := ⟨2, ![1, 10]⟩
abbrev S128x10 : Shape := ⟨2, ![128, 10]⟩

abbrev nBuf : Space → Nat
  | .hbm => 177
  | .vmem => 48
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x10, .f32⟩
  | 12 => ⟨S10, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1x128x128, .f32⟩
  | 54 => ⟨S128x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S100000x128, .f32⟩
  | 88 => ⟨S1x128x128, .f32⟩
  | 89 => ⟨S128x128, .f32⟩
  | 90 => ⟨S100000x128, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S100000x128, .f32⟩
  | 123 => ⟨S1x128x128, .f32⟩
  | 124 => ⟨S128x128, .f32⟩
  | 125 => ⟨S100000x128, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x128, .f32⟩
  | 7 => ⟨S1700000x1, .f32⟩
  | 8 => ⟨S1700000x128, .f32⟩
  | 9 => ⟨S1700000x128, .f32⟩
  | 10 => ⟨S_, .f32⟩
  | 11 => ⟨S100000x128, .f32⟩
  | 12 => ⟨S1700000x1, .i32⟩
  | 13 => ⟨S100000x128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S100000x128, .f32⟩
  | 30 => ⟨S_, .f32⟩
  | 31 => ⟨S100000, .f32⟩
  | 32 => ⟨S_, .f32⟩
  | 33 => ⟨S128, .f32⟩
  | 34 => ⟨S100000x1, .i32⟩
  | 35 => ⟨S128, .f32⟩
  | 36 => ⟨S_, .f32⟩
  | 37 => ⟨S128x128, .f32⟩
  | 38 => ⟨S100000x1, .i32⟩
  | 39 => ⟨S128x128, .f32⟩
  | 40 => ⟨S_, .f32⟩
  | 41 => ⟨S128, .f32⟩
  | 42 => ⟨S128, .f32⟩
  | 43 => ⟨S128x1, .f32⟩
  | 44 => ⟨S128x128, .f32⟩
  | 45 => ⟨S128x128, .f32⟩
  | 46 => ⟨S1x64, .f32⟩
  | 47 => ⟨S1x10, .f32⟩
  | 48 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S128x64, .f32⟩
  | .local _ .vmem, ⟨44, _⟩ => ⟨S1x64, .f32⟩
  | .local _ .vmem, ⟨45, _⟩ => ⟨S64x10, .f32⟩
  | .local _ .vmem, ⟨46, _⟩ => ⟨S1x10, .f32⟩
  | .local _ .vmem, ⟨47, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_9 : Ref sig .tc := ⟨.hbm, 91, rfl⟩
abbrev main_v65 : Ref sig .tc := ⟨.hbm, 92, rfl⟩
abbrev main_v66 : Ref sig .tc := ⟨.hbm, 93, rfl⟩
abbrev main_c_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_12 : Ref sig .tc := ⟨.hbm, 126, rfl⟩
abbrev main_v97 : Ref sig .tc := ⟨.hbm, 127, rfl⟩
abbrev main_v98 : Ref sig .tc := ⟨.hbm, 128, rfl⟩
abbrev main_c_13 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_14 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_15 : Ref sig .tc := ⟨.hbm, 158, rfl⟩
abbrev main_v126 : Ref sig .tc := ⟨.hbm, 159, rfl⟩
abbrev main_cst_16 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_17 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_18 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128 : S_.BroadcastsInDim S128 (![] : Fin 0 → Fin S128.rank)
  bcast_S100000_S100000x1_0 : S100000.BroadcastsInDim S100000x1 (![0] : Fin 1 → Fin S100000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S64_S1x64 : S64.ShapeCasts S1x64
  shapeCasts_S10_S1x10 : S10.ShapeCasts S1x10
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  dot_S128x128_S128x64_S128x64_1_0_0_1_n_n_wf : DotDims.WF S128x128 S128x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x128.size a ≤ S128x128.size a
  hwx6_0 : ∀ i : grid6.Coords, EltTy.bits .f32 = 32 ∨ (Rect.block (s := S128x128) S128x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x10.size a ≤ S128x10.size a
  hwx6_5 : ∀ i : grid6.Coords, EltTy.bits .f32 = 32 ∨ (Rect.block (s := S128x10) S128x10.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v93) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v93) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v109) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v125) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v137) S128x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v138) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v139) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v140) S128x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S100000x1 : Shape := ⟨2, ![100000, 1]⟩
abbrev S128x1 : Shape := ⟨2, ![128, 1]⟩
abbrev S1x64 : Shape := ⟨2, ![1, 64]⟩
abbrev S128x10 : Shape := ⟨2, ![128, 10]⟩
abbrev S1x10 : Shape := ⟨2, ![1, 10]⟩

abbrev nBuf : Space → Nat
  | .hbm => 233
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x10, .f32⟩
  | 12 => ⟨S10, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1x128x128, .f32⟩
  | 54 => ⟨S128x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S128, .f32⟩
  | 7 => ⟨S_, .f32⟩
  | 8 => ⟨S128, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x128, .f32⟩
  | 39 => ⟨S1700000x1, .f32⟩
  | 40 => ⟨S1700000x128, .f32⟩
  | 41 => ⟨S1700000x128, .f32⟩
  | 42 => ⟨S_, .f32⟩
  | 43 => ⟨S100000x128, .f32⟩
  | 44 => ⟨S1700000x1, .i32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S100000, .f32⟩
  | 80 => ⟨S_, .f32⟩
  | 81 => ⟨S128, .f32⟩
  | 82 => ⟨S100000x1, .i32⟩
  | 83 => ⟨S128, .f32⟩
  | 84 => ⟨S_, .f32⟩
  | 85 => ⟨S128x128, .f32⟩
  | 86 => ⟨S100000x1, .i32⟩
  | 87 => ⟨S128x128, .f32⟩
  | 88 => ⟨S_, .f32⟩
  | 89 => ⟨S128, .f32⟩
  | 90 => ⟨S128, .f32⟩
  | 91 => ⟨S128x1, .f32⟩
  | 92 => ⟨S128x128, .f32⟩
  | 93 => ⟨S128x128, .f32⟩
  | 94 => ⟨S128x64, .f32⟩
  | 95 => ⟨S1x64, .f32⟩
  | 96 => ⟨S128x64, .f32⟩
  | 97 => ⟨S128x64, .f32⟩
  | 98 => ⟨S_, .f32⟩
  | 99 => ⟨S128x64, .f32⟩
  | 100 => ⟨S128x64, .f32⟩
  | 101 => ⟨S128x10, .f32⟩
  | 102 => ⟨S1x10, .f32⟩
  | 103 => ⟨S128x10, .f32⟩
  | 104 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_cst : Ref sig .tc := ⟨.hbm, 101, rfl⟩
abbrev main_call1_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_10 : Ref sig .tc := ⟨.hbm, 107, rfl⟩
abbrev main_v78 : Ref sig .tc := ⟨.hbm, 108, rfl⟩
abbrev main_v79 : Ref sig .tc := ⟨.hbm, 109, rfl⟩
abbrev main_c_11 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_12 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_13 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_call2_cst : Ref sig .tc := ⟨.hbm, 152, rfl⟩
abbrev main_call2_v0 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_14 : Ref sig .tc := ⟨.hbm, 158, rfl⟩
abbrev main_v123 : Ref sig .tc := ⟨.hbm, 159, rfl⟩
abbrev main_v124 : Ref sig .tc := ⟨.hbm, 160, rfl⟩
abbrev main_c_15 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_16 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_17 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_call3_cst : Ref sig .tc := ⟨.hbm, 203, rfl⟩
abbrev main_call3_v0 : Ref sig .tc := ⟨.hbm, 204, rfl⟩
abbrev main_v164 : Ref sig .tc := ⟨.hbm, 205, rfl⟩
abbrev main_cst_18 : Ref sig .tc := ⟨.hbm, 206, rfl⟩
abbrev main_v165 : Ref sig .tc := ⟨.hbm, 207, rfl⟩
abbrev main_cst_19 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_cst_20 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_21 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_call4_cst : Ref sig .tc := ⟨.hbm, 226, rfl⟩
abbrev main_call4_v0 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000_S100000x1_0 : S100000.BroadcastsInDim S100000x1 (![0] : Fin 1 → Fin S100000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  dot_S128x128_S128x64_S128x64_1_0_0_1_n_n_wf : DotDims.WF S128x128 S128x64 S128x64 [1] [0] [0] [1] [] []
  dot_S128x64_S64x10_S128x10_1_0_0_1_n_n_wf : DotDims.WF S128x64 S64x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KernelRun.lean ====
/-
  The idealized kernel's whole run, with every buffer named.

  The program is seven launches among stretches of host operations. Its run is assembled from the same segments as its
  frame: each stretch of host operations takes the buffers from one boundary's contents to the next, each launch leaves
  its arrays at what its write-backs fold to and every other buffer as it found it. Here the run is stated with its full
  reach: after every weakly fair execution every buffer that outlives the program holds the last boundary's contents
  (`Gen.W16`) — in particular the result buffer, which is the last launch's output array.
-/
import proofs.«127366_j78915729097080_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final state every buffer that
    outlives the program holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The result buffer and the thirteen argument buffers after the run: the result at the last boundary's contents,
    the arguments as launched. -/
theorem run_result : θ_run defs (onTc (τ := τ) (main (F := F))) ⟨m, fun _ => 0, ρ⟩ (fun r => ∀ c : Dev nD,
      r.2.mem ((c.tc : Thread nD τ).loc main_v140) = W16 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨h c _ (mem_uc main_v140 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)
    (run_all m ρ)

end Cert.KernelIdeal.Whole

end
-- ==== Proof.LibMatmul.lean ====
/-
  A general lemma: a matrix product with one contracted axis, read at an entry, over the extended reals.

  For an [a, K] matrix `l` and a [K, b] matrix `r`, the product that contracts the second axis of `l` with the first of
  `r`, accumulated into the zero matrix, has at `(p, q)` the entry ∑ₖ l[p,k]·r[k,q]. It holds for any record of the
  product's dimensions of that form (the well-formedness witness is an argument), any precision hint and any two float
  formats of the operands.
-/
import Idealize.ShloMosaic.Lib.ValueIdx
import Idealize.ShloMosaic.Lib.Pipeline.Value
import Idealize.ShloMosaic.PureOps.Ideal.Laws

noncomputable section

namespace Cert.LibMatmul

open Idealize.ShloMosaic Idealize.ShloMosaic.ValueIdx
open scoped BigOperators

/-- A product of an [a, K] matrix with a [K, b] matrix, contracting the one shared axis, accumulated into the zero matrix and read
    at (p, q), is the sum over the shared axis of the products of the row's and the column's entries. -/
theorem matmul_zero_ix2 {a K b : ℕ} {φ₁ φ₂ : FTy}
    (wf : DotDims.WF ⟨2, ![a, K]⟩ ⟨2, ![K, b]⟩ ⟨2, ![a, b]⟩ [1] [0] [0] [1] [] [])
    (prec : Option ContractPrecision)
    (l : FVec Ideal ⟨2, ![a, K]⟩ φ₁) (r : FVec Ideal ⟨2, ![K, b]⟩ φ₂) (p : Fin a) (q : Fin b) :
    FloatOps.matmul (⟨[1], [0], [0], [1], [], [], wf⟩ : DotDims ⟨2, ![a, K]⟩ ⟨2, ![K, b]⟩ ⟨2, ![a, b]⟩) prec l r
        (constant ⟨2, ![a, b]⟩ .f32 0x00000000#32) (ix2 p q)
      = ∑ k : Fin K, l (ix2 p k) * r (ix2 k q) := by
  generalize hD : (⟨[1], [0], [0], [1], [], [], wf⟩ : DotDims ⟨2, ![a, K]⟩ ⟨2, ![K, b]⟩ ⟨2, ![a, b]⟩) = D
  have hlc : D.lhsContracting = [1] := by rw [← hD]
  have hrc : D.rhsContracting = [0] := by rw [← hD]
  have hrank : D.contr.rank = 1 := by rw [D.rank_contr, hlc]; rfl
  have hsize : D.contr.size ⟨0, by omega⟩ = K := by
    rw [D.size_contr 0 (by rw [hlc]; exact Nat.one_pos)]
    simp only [hlc]; rfl
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun ax => Fin.ext (by
    match ax with
    | ⟨0, _⟩ =>
      subst hD
      unfold DotDims.lhsIdx
      rw [dif_neg, dif_pos]
      all_goals first | exact List.not_mem_nil | exact List.mem_singleton.mpr rfl | rfl
    | ⟨1, _⟩ => exact (D.lhsIdx_val_of_single hlc _ _).trans hk)
  have er : D.rhsIdx (ix2 p q) ((contrEquiv1 D K hrank hsize).symm k) = ix2 k q := funext fun ax => Fin.ext (by
    match ax with
    | ⟨0, _⟩ => exact (D.rhsIdx_val_of_single hrc _ _).trans hk
    | ⟨1, _⟩ =>
      subst hD
      unfold DotDims.rhsIdx
      rw [dif_neg, dif_pos]
      all_goals first | exact List.not_mem_nil | exact List.mem_singleton.mpr rfl | rfl)
  rw [el, er]

end Cert.LibMatmul

end
-- ==== Proof.Entry.lean ====
/-
  What each kernel body stores, read at one entry, over the extended reals.

  * A matrix-product body stores, at (p, q), the sum over k of x[p,k]·w[k,q]: the two changes of float format on the
    way into the product are the identity on the extended reals, and the product is accumulated into zero.
  * A normalisation body stores, at (p, q), max(((a[p,q] + bias[q]) − mean[q]) · rsqrt(var[q] + ε) · γ[q] + β[q], 0),
    each of the five parameter rows read at column q.
  * The two-layer head stores, at (p, q), (∑ⱼ max((∑ₖ x[p,k]·w₁[k,j]) + b₁[j], 0) · w₂[j,q]) + b₂[q].
-/
import proofs.«127366_j78915729097080_1_alg».proof.Proof.Gen.KernelIdeal.Skeleton
import proofs.«127366_j78915729097080_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal Cert.KernelIdeal.Gen
open scoped BigOperators

/-- One entry of the normalisation followed by the rectifier: the aggregate plus its bias, centred, scaled by the
    reciprocal root of the variance plus ε and by γ, shifted by β, and cut below at zero. -/
def bnRelu (a bias mean var gamma beta : EReal) : EReal :=
  max (((a + bias) - mean) * Ideal.rsqrt (var + Ideal.ofBits .f32 0x3727C5AC#32) * gamma + beta) (Ideal.ofBits .f32 0x00000000#32)

/-- The matrix-product body of launch 0 at an entry: the row of the left block against the column of the weight matrix. -/
theorem matmul_body0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [shapeCast_self]
  refine (Cert.LibMatmul.matmul_zero_ix2 dot_S5000x128_S128x128_S5000x128_1_0_0_1_n_n_wf none (truncf .bf16 x0 bitsLt_bf16_f32) (truncf .bf16 x1 bitsLt_bf16_f32) p q).trans ?_
  rfl

/-- The matrix-product body of launch 2 at an entry: the row of the left block against the column of the weight matrix. -/
theorem matmul_body2_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  refine (Cert.LibMatmul.matmul_zero_ix2 dot_S5000x128_S128x128_S5000x128_1_0_0_1_n_n_wf none (truncf .bf16 x0 bitsLt_bf16_f32) (truncf .bf16 x1 bitsLt_bf16_f32) p q).trans ?_
  rfl

/-- The matrix-product body of launch 4 at an entry: the row of the left block against the column of the weight matrix. -/
theorem matmul_body4_apply (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  simp only [shapeCast_self]
  refine (Cert.LibMatmul.matmul_zero_ix2 dot_S5000x128_S128x128_S5000x128_1_0_0_1_n_n_wf none (truncf .bf16 x0 bitsLt_bf16_f32) (truncf .bf16 x1 bitsLt_bf16_f32) p q).trans ?_
  rfl

/-- The normalisation body of launch 1 at an entry. -/
theorem bn_body1_apply (v0 : Vec Ideal S5000x128 .f32) (v2 v6 v11 v17 v21 : Vec Ideal S1x128 .f32) (p : Fin 5000) (q : Fin 128) :
    k1_pay1 v0 v2 v6 v11 v17 v21 (ix2 p q)
      = bnRelu (v0 (ix2 p q)) (v2 (ix2 (0 : Fin 1) q)) (v11 (ix2 (0 : Fin 1) q)) (v6 (ix2 (0 : Fin 1) q)) (v17 (ix2 (0 : Fin 1) q)) (v21 (ix2 (0 : Fin 1) q)) := by
  unfold k1_pay1 bnRelu
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- The normalisation body of launch 3 at an entry. -/
theorem bn_body3_apply (v0 : Vec Ideal S5000x128 .f32) (v2 v6 v11 v17 v21 : Vec Ideal S1x128 .f32) (p : Fin 5000) (q : Fin 128) :
    k3_pay1 v0 v2 v6 v11 v17 v21 (ix2 p q)
      = bnRelu (v0 (ix2 p q)) (v2 (ix2 (0 : Fin 1) q)) (v11 (ix2 (0 : Fin 1) q)) (v6 (ix2 (0 : Fin 1) q)) (v17 (ix2 (0 : Fin 1) q)) (v21 (ix2 (0 : Fin 1) q)) := by
  unfold k3_pay1 bnRelu
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- The normalisation body of launch 5 at an entry. -/
theorem bn_body5_apply (v0 : Vec Ideal S5000x128 .f32) (v2 v6 v11 v17 v21 : Vec Ideal S1x128 .f32) (p : Fin 5000) (q : Fin 128) :
    k5_pay1 v0 v2 v6 v11 v17 v21 (ix2 p q)
      = bnRelu (v0 (ix2 p q)) (v2 (ix2 (0 : Fin 1) q)) (v11 (ix2 (0 : Fin 1) q)) (v6 (ix2 (0 : Fin 1) q)) (v17 (ix2 (0 : Fin 1) q)) (v21 (ix2 (0 : Fin 1) q)) := by
  unfold k5_pay1 bnRelu
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- The head's body at an entry. -/
theorem mlp_body_apply (v0 : Vec Ideal S128x128 .f32) (v3 : Vec Ideal S128x64 .f32) (v6 : Vec Ideal S1x64 .f32)
    (v13 : Vec Ideal S64x10 .f32) (v16 : Vec Ideal S1x10 .f32) (p : Fin 128) (q : Fin 10) :
    k6_pay1 v0 v3 v6 v13 v16 (ix2 p q)
      = (∑ j : Fin 64, max ((∑ k : Fin 128, v0 (ix2 p k) * v3 (ix2 k j)) + v6 (ix2 (0 : Fin 1) j)) (Ideal.ofBits .f32 0x00000000#32)
            * v13 (ix2 j q)) + v16 (ix2 (0 : Fin 1) q) := by
  unfold k6_pay1
  simp only [shapeCast_self]
  rw [addf_apply, broadcastTo_1b_ab_apply]
  refine congrArg (· + v16 (ix2 (0 : Fin 1) q)) ?_
  refine (Cert.LibMatmul.matmul_zero_ix2 dot_S128x64_S64x10_S128x10_1_0_0_1_n_n_wf none _ _ p q).trans ?_
  refine Finset.sum_congr rfl fun j _ => ?_
  refine congrArg (· * v13 (ix2 j q)) ?_
  show max (_ + broadcastTo S128x64 v6 broadcasts_S1x64_S128x64 (ix2 p j)) _ = _
  rw [broadcastTo_1b_ab_apply]
  refine congrArg (fun z => max (z + v6 (ix2 (0 : Fin 1) j)) (Ideal.ofBits .f32 0x00000000#32)) ?_
  refine (Cert.LibMatmul.matmul_zero_ix2 dot_S128x128_S128x64_S128x64_1_0_0_1_n_n_wf none (truncf .bf16 v0 bitsLt_bf16_f32) (truncf .bf16 v3 bitsLt_bf16_f32) p j).trans ?_
  rfl

end Cert.KernelIdeal.Entry

end
-- ==== Proof.Arrays.lean ====
/-
  The whole-array functions the launches compute, over the extended reals.

  * `prodArr x w`: the matrix product, entry (p, q) the sum over k of x[p,k]·w[k,q].
  * `bnArr a bias mean var γ β`: entry (p, q) is the normalisation and rectifier of a[p,q] with the five parameter rows read at q.
  * `rowArr v`: a vector laid as the one row of a [1, n] array (what a reshape of [n] to [1, n] gives).
  * `mlpArr x w₁ b₁ w₂ b₂`: the two-layer head, entry (p, q) is (∑ⱼ max((x·w₁)[p,j] + b₁[j], 0)·w₂[j,q]) + b₂[q].
-/
import proofs.«127366_j78915729097080_1_alg».proof.Proof.Entry

noncomputable section

namespace Cert.KernelIdeal.Arrays

open Idealize.ShloMosaic Idealize.ShloMosaic.ValueIdx Cert.KernelIdeal.Entry
open scoped BigOperators

/-- The row of a two-axis index, as a number below the literal extent. -/
abbrev rowOf {a b : ℕ} (i : (⟨2, ![a, b]⟩ : Shape).Idx) : Fin a := ⟨(i 0).val, idx2_lt0 i⟩
/-- The column of a two-axis index, as a number below the literal extent. -/
abbrev colOf {a b : ℕ} (i : (⟨2, ![a, b]⟩ : Shape).Idx) : Fin b := ⟨(i 1).val, idx2_lt1 i⟩

/-- A vector of n entries laid as the one row of a [1, n] array. -/
def rowArr {n : ℕ} {α : Type} (v : (⟨1, ![n]⟩ : Shape).Idx → α) : (⟨2, ![1, n]⟩ : Shape).Idx → α := fun i => v (ix1 (colOf i))

/-- A reshape of a vector of n entries to [1, n] lays it as the one row. -/
theorem shapeCast_row {n : ℕ} {α : Type} (v : (⟨1, ![n]⟩ : Shape).Idx → α) (h : (⟨1, ![n]⟩ : Shape).ShapeCasts ⟨2, ![1, n]⟩) :
    shapeCast ⟨2, ![1, n]⟩ v h = rowArr v := funext fun i => by
  obtain ⟨u, j, rfl⟩ : ∃ (u : Fin 1) (j : Fin n), i = ix2 u j := ⟨i 0, i 1, eq_ix2 i⟩
  exact shapeCast_a_1a_apply v h u j

/-- The matrix product of an [a, K] array with a [K, b] array. -/
def prodArr {a K b : ℕ} (x : FVec Ideal ⟨2, ![a, K]⟩ .f32) (w : FVec Ideal ⟨2, ![K, b]⟩ .f32) : FVec Ideal ⟨2, ![a, b]⟩ .f32 :=
  fun i => ∑ k : Fin K, x (ix2 (rowOf i) k) * w (ix2 k (colOf i))

/-- The normalisation and rectifier of an [a, b] array, entry by entry, against five [1, b] parameter rows. -/
def bnArr {a b : ℕ} (x : FVec Ideal ⟨2, ![a, b]⟩ .f32) (bias mean var gamma beta : FVec Ideal ⟨2, ![1, b]⟩ .f32) :
    FVec Ideal ⟨2, ![a, b]⟩ .f32 :=
  fun i => bnRelu (x i) (bias (ix2 (0 : Fin 1) (colOf i))) (mean (ix2 (0 : Fin 1) (colOf i))) (var (ix2 (0 : Fin 1) (colOf i)))
    (gamma (ix2 (0 : Fin 1) (colOf i))) (beta (ix2 (0 : Fin 1) (colOf i)))

/-- The two-layer head: a product, a bias row, the rectifier, a second product, a second bias row. -/
def mlpArr {a K H b : ℕ} (x : FVec Ideal ⟨2, ![a, K]⟩ .f32) (w1 : FVec Ideal ⟨2, ![K, H]⟩ .f32) (b1 : FVec Ideal ⟨2, ![1, H]⟩ .f32)
    (w2 : FVec Ideal ⟨2, ![H, b]⟩ .f32) (b2 : FVec Ideal ⟨2, ![1, b]⟩ .f32) : FVec Ideal ⟨2, ![a, b]⟩ .f32 :=
  fun i => (∑ j : Fin H, max ((∑ k : Fin K, x (ix2 (rowOf i) k) * w1 (ix2 k j)) + b1 (ix2 (0 : Fin 1) j)) (Ideal.ofBits .f32 0x00000000#32)
      * w2 (ix2 j (colOf i))) + b2 (ix2 (0 : Fin 1) (colOf i))

end Cert.KernelIdeal.Arrays

end
-- ==== Proof.Region0.lean ====
/-
  Launch 0: the matrix product of the [100000, 128] array `main_arg0` with the [128, 128] weights `main_v31`, 5000 rows per grid point.
  The twenty points' blocks tile the output array `main_v32`, and the block a point writes back is that block of the product
  of the WHOLE arrays: row p of block t is row 5000·t + p, and the weights' one block is the whole matrix. So the array
  the launch leaves is `prodArr` of the two arrays it found.
-/
import proofs.«127366_j78915729097080_1_alg».proof.Proof.Gen.KernelIdeal.Frame
import proofs.«127366_j78915729097080_1_alg».proof.Proof.Arrays

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Entry Cert.KernelIdeal.Arrays
open scoped BigOperators

variable (V : (c : Dev nD) → (b : Ref sig .tc) → Buf (Elt Ideal) ((c : Thread nD τ).loc b))

/-- The zero offset of a block's one store and of its loads. -/
theorem zero_off : (![0, 0] : Fin 2 → Nat) = fun _ => 0 := funext fun a => by fin_cases a <;> rfl

/-- The printed index maps over the grid: the row blocks move with the point, everything else stays at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays. -/
theorem flushed_eq (c : Dev nD) (t : Fin cfg0.N) :
    (dat0 V c).flushed 2 t = ((cfg0.win 2).blk t).view.read (Elt Ideal) (prodArr (V c main_arg0) (V c main_v31)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨e0, e1, e2, e3, e4, e5⟩ := index_facts t
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (ix2 p q)
    = prodArr (V c main_arg0) (V c main_v31) (((cfg0.win 2).blk t).view.emb (ix2 p q))
  refine (matmul_body0_apply (iblk0 V c 0 t) (iblk0 V c 1 t) p q).trans ?_
  unfold prodArr
  refine Finset.sum_congr rfl fun k _ => ?_
  have h0 : ((cfg0.win 0).blk t).view.emb (ix2 p k) = ix2 (rowOf (((cfg0.win 2).blk t).view.emb (ix2 p q))) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k (colOf (((cfg0.win 2).blk t).view.emb (ix2 p q))) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have hb0 : iblk0 V c 0 t (ix2 p k) = V c main_arg0 (((cfg0.win 0).blk t).view.emb (ix2 p k)) := rfl
  have hb1 : iblk0 V c 1 t (ix2 k q) = V c main_v31 (((cfg0.win 1).blk t).view.emb (ix2 k q)) := rfl
  rw [hb0, hb1, h0, h1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every entry of the output array is in the block of the point its row falls to. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  obtain ⟨e0, e1, e2, e3, e4, e5⟩ := index_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the launch is the product of the two arrays the launch found. -/
theorem final (c : Dev nD) : (dat0 V c).arrAt 2 cfg0.N = prodArr (V c main_arg0) (V c main_v31) :=
  (dat0 V c).arrAt_eq_of_cover 2 (prodArr (V c main_arg0) (V c main_v31)) (fun t _ => flushed_eq V c t) cover

end Cert.KernelIdeal.Region0

end
-- ==== Proof.Region1.lean ====
/-
  Launch 1: the normalisation and rectifier of the [100000, 128] array `main_v45` against the five [1, 128] parameter rows
  `main_v56`, `main_v57`, `main_v58`, `main_v59`, `main_v60` (bias, mean, variance, γ, β, in the launch's operand order), 5000 rows per grid point. The block a point
  writes back is that block of `bnArr` of the WHOLE arrays: entry (p, q) of block t is entry (5000·t + p, q), and each
  parameter row's one block is the whole row. So the array the launch leaves is `bnArr` of the arrays it found.
-/
import proofs.«127366_j78915729097080_1_alg».proof.Proof.Gen.KernelIdeal.Frame
import proofs.«127366_j78915729097080_1_alg».proof.Proof.Arrays

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Entry Cert.KernelIdeal.Arrays
open scoped BigOperators

variable (V : (c : Dev nD) → (b : Ref sig .tc) → Buf (Elt Ideal) ((c : Thread nD τ).loc b))

/-- The zero offset of a block's one store and of its loads. -/
theorem zero_off : (![0, 0] : Fin 2 → Nat) = fun _ => 0 := funext fun a => by fin_cases a <;> rfl

/-- The printed index maps over the grid: the row blocks of the input and the output move with the point, the
    parameter rows stay at block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the normalisation of the whole arrays. -/
theorem flushed_eq (c : Dev nD) (t : Fin cfg1.N) :
    (dat1 V c).flushed 6 t = ((cfg1.win 6).blk t).view.read (Elt Ideal)
      (bnArr (V c main_v45) (V c main_v56) (V c main_v57) (V c main_v58) (V c main_v59) (V c main_v60)) := by
  show (cfg1.win 6).cut (grid1.coords t) ((dat1 V c).after 6 t) = _
  rw [after1_6]
  unfold out1_6
  rw [View.canon_unit_zero zero_off]
  simp only [View.ld_unit_zero (S := S5000x128) zero_off, View.ld_unit_zero (S := S1x128) zero_off]
  obtain ⟨e0, e1, e2, e3, e4, e5, e6, e7, e8, e9, e10, e11, e12, e13⟩ := index_facts t
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (iblk1 V c 3 t) (iblk1 V c 2 t) (iblk1 V c 4 t) (iblk1 V c 5 t) (ix2 p q)
    = bnArr (V c main_v45) (V c main_v56) (V c main_v57) (V c main_v58) (V c main_v59) (V c main_v60) (((cfg1.win 6).blk t).view.emb (ix2 p q))
  refine (bn_body1_apply (iblk1 V c 0 t) (iblk1 V c 1 t) (iblk1 V c 3 t) (iblk1 V c 2 t) (iblk1 V c 4 t) (iblk1 V c 5 t) p q).trans ?_
  unfold bnArr
  have h0 : ((cfg1.win 0).blk t).view.emb (ix2 p q) = ((cfg1.win 6).blk t).view.emb (ix2 p q) := by
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * q.val = win1_6.index t (1 : Fin 2) * 128 + 1 * q.val; omega
  have h1 : ((cfg1.win 1).blk t).view.emb (ix2 (0 : Fin 1) q) = ix2 (0 : Fin 1) (colOf (((cfg1.win 6).blk t).view.emb (ix2 p q))) := by
    funext a; apply Fin.ext
    match a with
    | ⟨0, _⟩ => show win1_1.index t (0 : Fin 2) * 1 + 1 * 0 = 0; omega
    | ⟨1, _⟩ => show win1_1.index t (1 : Fin 2) * 128 + 1 * q.val = win1_6.index t (1 : Fin 2) * 128 + 1 * q.val; omega
  have h2 : ((cfg1.win 2).blk t).view.emb (ix2 (0 : Fin 1) q) = ix2 (0 : Fin 1) (colOf (((cfg1.win 6).blk t).view.emb (ix2 p q))) := by
    funext a; apply Fin.ext
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  have h3 : ((cfg1.win 3).blk t).view.emb (ix2 (0 : Fin 1) q) = ix2 (0 : Fin 1) (colOf (((cfg1.win 6).blk t).view.emb (ix2 p q))) := by
    funext a; apply Fin.ext
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have h4 : ((cfg1.win 4).blk t).view.emb (ix2 (0 : Fin 1) q) = ix2 (0 : Fin 1) (colOf (((cfg1.win 6).blk t).view.emb (ix2 p q))) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have h5 : ((cfg1.win 5).blk t).view.emb (ix2 (0 : Fin 1) q) = ix2 (0 : Fin 1) (colOf (((cfg1.win 6).blk t).view.emb (ix2 p q))) := by
    funext a; apply Fin.ext
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  show bnRelu (V c main_v45 (((cfg1.win 0).blk t).view.emb (ix2 p q))) (V c main_v56 (((cfg1.win 1).blk t).view.emb (ix2 (0 : Fin 1) q)))
      (V c main_v57 (((cfg1.win 2).blk t).view.emb (ix2 (0 : Fin 1) q))) (V c main_v58 (((cfg1.win 3).blk t).view.emb (ix2 (0 : Fin 1) q)))
      (V c main_v59 (((cfg1.win 4).blk t).view.emb (ix2 (0 : Fin 1) q))) (V c main_v60 (((cfg1.win 5).blk t).view.emb (ix2 (0 : Fin 1) q))) = _
  rw [h0, h1, h2, h3, h4, h5]

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v61).slice (win1_6.rect t)).set ↔ _
  rw [View.set_slice_whole, Rect.mem_set_unit]
  exact Iff.rfl

/-- Every entry of the output array is in the block of the point its row falls to. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; omega
  obtain ⟨e0, e1, e2, e3, e4, e5, e6, e7, e8, e9, e10, e11, e12, e13⟩ := index_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e13]; omega

/-- The output array after the launch is the normalisation of the arrays the launch found. -/
theorem final (c : Dev nD) : (dat1 V c).arrAt 6 cfg1.N
    = bnArr (V c main_v45) (V c main_v56) (V c main_v57) (V c main_v58) (V c main_v59) (V c main_v60) :=
  (dat1 V c).arrAt_eq_of_cover 6 (bnArr (V c main_v45) (V c main_v56) (V c main_v57) (V c main_v58) (V c main_v59) (V c main_v60))
    (fun t _ => flushed_eq V c t) cover

end Cert.KernelIdeal.Region1

end
-- ==== Proof.Region2.lean ====
/-
  Launch 2: the matrix product of the [100000, 128] array `main_v61` with the [128, 128] weights `main_v63`, 5000 rows per grid point.
  The twenty points' blocks tile the output array `main_v64`, and the block a point writes back is that block of the product
  of the WHOLE arrays: row p of block t is row 5000·t + p, and the weights' one block is the whole matrix. So the array
  the launch leaves is `prodArr` of the two arrays it found.
-/
import proofs.«127366_j78915729097080_1_alg».proof.Proof.Gen.KernelIdeal.Frame
import proofs.«127366_j78915729097080_1_alg».proof.Proof.Arrays

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Entry Cert.KernelIdeal.Arrays
open scoped BigOperators

variable (V : (c : Dev nD) → (b : Ref sig .tc) → Buf (Elt Ideal) ((c : Thread nD τ).loc b))

/-- The zero offset of a block's one store and of its loads. -/
theorem zero_off : (![0, 0] : Fin 2 → Nat) = fun _ => 0 := funext fun a => by fin_cases a <;> rfl

/-- The printed index maps over the grid: the row blocks move with the point, everything else stays at block 0. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the whole arrays. -/
theorem flushed_eq (c : Dev nD) (t : Fin cfg2.N) :
    (dat2 V c).flushed 2 t = ((cfg2.win 2).blk t).view.read (Elt Ideal) (prodArr (V c main_v61) (V c main_v63)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x128) zero_off]
  obtain ⟨e0, e1, e2, e3, e4, e5⟩ := index_facts t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (ix2 p q)
    = prodArr (V c main_v61) (V c main_v63) (((cfg2.win 2).blk t).view.emb (ix2 p q))
  refine (matmul_body2_apply (iblk2 V c 0 t) (iblk2 V c 1 t) p q).trans ?_
  unfold prodArr
  refine Finset.sum_congr rfl fun k _ => ?_
  have h0 : ((cfg2.win 0).blk t).view.emb (ix2 p k) = ix2 (rowOf (((cfg2.win 2).blk t).view.emb (ix2 p q))) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k (colOf (((cfg2.win 2).blk t).view.emb (ix2 p q))) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  have hb0 : iblk2 V c 0 t (ix2 p k) = V c main_v61 (((cfg2.win 0).blk t).view.emb (ix2 p k)) := rfl
  have hb1 : iblk2 V c 1 t (ix2 k q) = V c main_v63 (((cfg2.win 1).blk t).view.emb (ix2 k q)) := rfl
  rw [hb0, hb1, h0, h1]

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v64).slice (win2_2.rect t)).set ↔ _
  rw [View.set_slice_whole, Rect.mem_set_unit]
  exact Iff.rfl

/-- Every entry of the output array is in the block of the point its row falls to. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; omega
  obtain ⟨e0, e1, e2, e3, e4, e5⟩ := index_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- The output array after the launch is the product of the two arrays the launch found. -/
theorem final (c : Dev nD) : (dat2 V c).arrAt 2 cfg2.N = prodArr (V c main_v61) (V c main_v63) :=
  (dat2 V c).arrAt_eq_of_cover 2 (prodArr (V c main_v61) (V c main_v63)) (fun t _ => flushed_eq V c t) cover

end Cert.KernelIdeal.Region2

end
-- ==== Proof.Region3.lean ====
/-
  Launch 3: the normalisation and rectifier of the [100000, 128] array `main_v77` against the five [1, 128] parameter rows
  `main_v88`, `main_v89`, `main_v90`, `main_v91`, `main_v92` (bias, mean, variance, γ, β, in the launch's operand order), 5000 rows per grid point. The block a point
  writes back is that block of `bnArr` of the WHOLE arrays: entry (p, q) of block t is entry (5000·t + p, q), and each
  parameter row's one block is the whole row. So the array the launch leaves is `bnArr` of the arrays it found.
-/
import proofs.«127366_j78915729097080_1_alg».proof.Proof.Gen.KernelIdeal.Frame
import proofs.«127366_j78915729097080_1_alg».proof.Proof.Arrays

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Entry Cert.KernelIdeal.Arrays
open scoped BigOperators

variable (V : (c : Dev nD) → (b : Ref sig .tc) → Buf (Elt Ideal) ((c : Thread nD τ).loc b))

/-- The zero offset of a block's one store and of its loads. -/
theorem zero_off : (![0, 0] : Fin 2 → Nat) = fun _ => 0 := funext fun a => by fin_cases a <;> rfl

/-- The printed index maps over the grid: the row blocks of the input and the output move with the point, the
    parameter rows stay at block 0. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point `t` writes back is block `t` of the normalisation of the whole arrays. -/
theorem flushed_eq (c : Dev nD) (t : Fin cfg3.N) :
    (dat3 V c).flushed 6 t = ((cfg3.win 6).blk t).view.read (Elt Ideal)
      (bnArr (V c main_v77) (V c main_v88) (V c main_v89) (V c main_v90) (V c main_v91) (V c main_v92)) := by
  show (cfg3.win 6).cut (grid3.coords t) ((dat3 V c).after 6 t) = _
  rw [after3_6]
  unfold out3_6
  rw [View.canon_unit_zero zero_off]
  simp only [View.ld_unit_zero (S := S5000x128) zero_off, View.ld_unit_zero (S := S1x128) zero_off]
  obtain ⟨e0, e1, e2, e3, e4, e5, e6, e7, e8, e9, e10, e11, e12, e13⟩ := index_facts t
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 1 t) (iblk3 V c 3 t) (iblk3 V c 2 t) (iblk3 V c 4 t) (iblk3 V c 5 t) (ix2 p q)
    = bnArr (V c main_v77) (V c main_v88) (V c main_v89) (V c main_v90) (V c main_v91) (V c main_v92) (((cfg3.win 6).blk t).view.emb (ix2 p q))
  refine (bn_body3_apply (iblk3 V c 0 t) (iblk3 V c 1 t) (iblk3 V c 3 t) (iblk3 V c 2 t) (iblk3 V c 4 t) (iblk3 V c 5 t) p q).trans ?_
  unfold bnArr
  have h0 : ((cfg3.win 0).blk t).view.emb (ix2 p q) = ((cfg3.win 6).blk t).view.emb (ix2 p q) := by
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * q.val = win3_6.index t (1 : Fin 2) * 128 + 1 * q.val; omega
  have h1 : ((cfg3.win 1).blk t).view.emb (ix2 (0 : Fin 1) q) = ix2 (0 : Fin 1) (colOf (((cfg3.win 6).blk t).view.emb (ix2 p q))) := by
    funext a; apply Fin.ext
    match a with
    | ⟨0, _⟩ => show win3_1.index t (0 : Fin 2) * 1 + 1 * 0 = 0; omega
    | ⟨1, _⟩ => show win3_1.index t (1 : Fin 2) * 128 + 1 * q.val = win3_6.index t (1 : Fin 2) * 128 + 1 * q.val; omega
  have h2 : ((cfg3.win 2).blk t).view.emb (ix2 (0 : Fin 1) q) = ix2 (0 : Fin 1) (colOf (((cfg3.win 6).blk t).view.emb (ix2 p q))) := by
    funext a; apply Fin.ext
    match a with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  have h3 : ((cfg3.win 3).blk t).view.emb (ix2 (0 : Fin 1) q) = ix2 (0 : Fin 1) (colOf (((cfg3.win 6).blk t).view.emb (ix2 p q))) := by
    funext a; apply Fin.ext
    match a with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega
  have h4 : ((cfg3.win 4).blk t).view.emb (ix2 (0 : Fin 1) q) = ix2 (0 : Fin 1) (colOf (((cfg3.win 6).blk t).view.emb (ix2 p q))) := by
    funext a; apply Fin.ext
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  have h5 : ((cfg3.win 5).blk t).view.emb (ix2 (0 : Fin 1) q) = ix2 (0 : Fin 1) (colOf (((cfg3.win 6).blk t).view.emb (ix2 p q))) := by
    funext a; apply Fin.ext
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  show bnRelu (V c main_v77 (((cfg3.win 0).blk t).view.emb (ix2 p q))) (V c main_v88 (((cfg3.win 1).blk t).view.emb (ix2 (0 : Fin 1) q)))
      (V c main_v89 (((cfg3.win 2).blk t).view.emb (ix2 (0 : Fin 1) q))) (V c main_v90 (((cfg3.win 3).blk t).view.emb (ix2 (0 : Fin 1) q)))
      (V c main_v91 (((cfg3.win 4).blk t).view.emb (ix2 (0 : Fin 1) q))) (V c main_v92 (((cfg3.win 5).blk t).view.emb (ix2 (0 : Fin 1) q))) = _
  rw [h0, h1, h2, h3, h4, h5]

/-- An index of the output array is in point `t`'s block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v93).slice (win3_6.rect t)).set ↔ _
  rw [View.set_slice_whole, Rect.mem_set_unit]
  exact Iff.rfl

/-- Every entry of the output array is in the block of the point its row falls to. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : grid3.N = 20 := N_3
  have ht : (i 0).val / 5000 < cfg3.N := by show (i 0).val / 5000 < grid3.N; omega
  obtain ⟨e0, e1, e2, e3, e4, e5, e6, e7, e8, e9, e10, e11, e12, e13⟩ := index_facts ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e13]; omega

/-- The output array after the launch is the normalisation of the arrays the launch found. -/
theorem final (c : Dev nD) : (dat3 V c).arrAt 6 cfg3.N
    = bnArr (V c main_v77) (V c main_v88) (V c main_v89) (V c main_v90) (V c main_v91) (V c main_v92) :=
  (dat3 V c).arrAt_eq_of_cover 6 (bnArr (V c main_v77) (V c main_v88) (V c main_v89) (V c main_v90) (V c main_v91) (V c main_v92))
    (fun t _ => flushed_eq V c t) cover

end Cert.KernelIdeal.Region3

end
-- ==== Proof.Region4.lean ====
/-
  Launch 4: the matrix product of the [100000, 128] array `main_v93` with the [128, 128] weights `main_v95`, 5000 rows per grid point.
  The twenty points' blocks tile the output array `main_v96`, and the block a point writes back is that block of the product
  of the WHOLE arrays: row p of block t is row 5000·t + p, and the weights' one block is the whole matrix. So the array
  the launch leaves is `prodArr` of the two arrays it found.
-/
import proofs.«127366_j78915729097080_1_alg».proof.Proof.Gen.KernelIdeal.Frame
import proofs.«127366_j78915729097080_1_alg».proof.Proof.Arrays

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Entry Cert.KernelIdeal.Arrays
open scoped BigOperators

variable (V : (c : Dev nD) → (b : Ref sig .tc) → Buf (Elt Ideal) ((c : Thread nD τ).loc b))

/-- The zero offset of a block's one store and of its loads. -/
theorem zero_off : (![0, 0] : Fin 2 → Nat) = fun _ => 0 := funext fun a => by fin_cases a <;> rfl

/-- The printed index maps over the grid: the row blocks move with the point, everything else stays at block 0. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the whole arrays. -/
theorem flushed_eq (c : Dev nD) (t : Fin cfg4.N) :
    (dat4 V c).flushed 2 t = ((cfg4.win 2).blk t).view.read (Elt Ideal) (prodArr (V c main_v93) (V c main_v95)) := by
  show (cfg4.win 2).cut (grid4.coords t) ((dat4 V c).after 2 t) = _
  rw [after4_2]
  unfold out4_2
  rw [View.canon_unit_zero zero_off]
  simp only [View.ld_unit_zero (S := S5000x128) zero_off, View.ld_unit_zero (S := S128x128) zero_off]
  obtain ⟨e0, e1, e2, e3, e4, e5⟩ := index_facts t
  refine funext fun (j : S5000x128.Idx) => ?_
  obtain ⟨p, q, rfl⟩ : ∃ (p : Fin 5000) (q : Fin 128), j = ix2 p q := ⟨j 0, j 1, eq_ix2 j⟩
  show k4_pay1 (iblk4 V c 0 t) (iblk4 V c 1 t) (ix2 p q)
    = prodArr (V c main_v93) (V c main_v95) (((cfg4.win 2).blk t).view.emb (ix2 p q))
  refine (matmul_body4_apply (iblk4 V c 0 t) (iblk4 V c 1 t) p q).trans ?_
  unfold prodArr
  refine Finset.sum_congr rfl fun k _ => ?_
  have h0 : ((cfg4.win 0).blk t).view.emb (ix2 p k) = ix2 (rowOf (((cfg4.win 2).blk t).view.emb (ix2 p q))) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q) = ix2 k (colOf (((cfg4.win 2).blk t).view.emb (ix2 p q))) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  have hb0 : iblk4 V c 0 t (ix2 p k) = V c main_v93 (((cfg4.win 0).blk t).view.emb (ix2 p k)) := rfl
  have hb1 : iblk4 V c 1 t (ix2 k q) = V c main_v95 (((cfg4.win 1).blk t).view.emb (ix2 k q)) := rfl
  rw [hb0, hb1, h0, h1]

/-- An index of the output array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v96).slice (win4_2.rect t)).set ↔ _
  rw [View.set_slice_whole, Rect.mem_set_unit]
  exact Iff.rfl

/-- Every entry of the output array is in the block of the point its row falls to. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  have ht : (i 0).val / 5000 < cfg4.N := by show (i 0).val / 5000 < grid4.N; omega
  obtain ⟨e0, e1, e2, e3, e4, e5⟩ := index_facts ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e5]; omega

/-- The output array after the launch is the product of the two arrays the launch found. -/
theorem final (c : Dev nD) : (dat4 V c).arrAt 2 cfg4.N = prodArr (V c main_v93) (V c main_v95) :=
  (dat4 V c).arrAt_eq_of_cover 2 (prodArr (V c main_v93) (V c main_v95)) (fun t _ => flushed_eq V c t) cover

end Cert.KernelIdeal.Region4

end
-- ==== Proof.Region5.lean ====
/-
  Launch 5: the normalisation and rectifier of the [100000, 128] array `main_v109` against the five [1, 128] parameter rows
  `main_v120`, `main_v121`, `main_v122`, `main_v123`, `main_v124` (bias, mean, variance, γ, β, in the launch's operand order), 5000 rows per grid point. The block a point
  writes back is that block of `bnArr` of the WHOLE arrays: entry (p, q) of block t is entry (5000·t + p, q), and each
  parameter row's one block is the whole row. So the array the launch leaves is `bnArr` of the arrays it found.
-/
import proofs.«127366_j78915729097080_1_alg».proof.Proof.Gen.KernelIdeal.Frame
import proofs.«127366_j78915729097080_1_alg».proof.Proof.Arrays

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Entry Cert.KernelIdeal.Arrays
open scoped BigOperators

variable (V : (c : Dev nD) → (b : Ref sig .tc) → Buf (Elt Ideal) ((c : Thread nD τ).loc b))

/-- The zero offset of a block's one store and of its loads. -/
theorem zero_off : (![0, 0] : Fin 2 → Nat) = fun _ => 0 := funext fun a => by fin_cases a <;> rfl

/-- The printed index maps over the grid: the row blocks of the input and the output move with the point, the
    parameter rows stay at block 0. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What point `t` writes back is block `t` of the normalisation of the whole arrays. -/
theorem flushed_eq (c : Dev nD) (t : Fin cfg5.N) :
    (dat5 V c).flushed 6 t = ((cfg5.win 6).blk t).view.read (Elt Ideal)
      (bnArr (V c main_v109) (V c main_v120) (V c main_v121) (V c main_v122) (V c main_v123) (V c main_v124)) := by
  show (cfg5.win 6).cut (grid5.coords t) ((dat5 V c).after 6 t) = _
  rw [after5_6]
  unfold out5_6
  rw [View.canon_unit_zero zero_off]
  simp only [View.ld_unit_zero (S := S5000x128) zero_off, View.ld_unit_zero (S := S1x128) zero_off]
  obtain ⟨e0, e1, e2, e3, e4, e5, e6, e7, e8, e9, e10, e11, e12, e13⟩ := index_facts t
  refine funext fun (j : S5000x128.Idx) => ?_
  obtain ⟨p, q, rfl⟩ : ∃ (p : Fin 5000) (q : Fin 128), j = ix2 p q := ⟨j 0, j 1, eq_ix2 j⟩
  show k5_pay1 (iblk5 V c 0 t) (iblk5 V c 1 t) (iblk5 V c 3 t) (iblk5 V c 2 t) (iblk5 V c 4 t) (iblk5 V c 5 t) (ix2 p q)
    = bnArr (V c main_v109) (V c main_v120) (V c main_v121) (V c main_v122) (V c main_v123) (V c main_v124) (((cfg5.win 6).blk t).view.emb (ix2 p q))
  refine (bn_body5_apply (iblk5 V c 0 t) (iblk5 V c 1 t) (iblk5 V c 3 t) (iblk5 V c 2 t) (iblk5 V c 4 t) (iblk5 V c 5 t) p q).trans ?_
  unfold bnArr
  have h0 : ((cfg5.win 0).blk t).view.emb (ix2 p q) = ((cfg5.win 6).blk t).view.emb (ix2 p q) := by
    funext a; apply Fin.ext
    match a with
    | ⟨0, _⟩ => show win5_0.index t (0 : Fin 2) * 5000 + 1 * p.val = win5_6.index t (0 : Fin 2) * 5000 + 1 * p.val; omega
    | ⟨1, _⟩ => show win5_0.index t (1 : Fin 2) * 128 + 1 * q.val = win5_6.index t (1 : Fin 2) * 128 + 1 * q.val; omega
  have h1 : ((cfg5.win 1).blk t).view.emb (ix2 (0 : Fin 1) q) = ix2 (0 : Fin 1) (colOf (((cfg5.win 6).blk t).view.emb (ix2 p q))) := by
    funext a; apply Fin.ext
    match a with
    | ⟨0, _⟩ => show win5_1.index t (0 : Fin 2) * 1 + 1 * 0 = 0; omega
    | ⟨1, _⟩ => show win5_1.index t (1 : Fin 2) * 128 + 1 * q.val = win5_6.index t (1 : Fin 2) * 128 + 1 * q.val; omega
  have h2 : ((cfg5.win 2).blk t).view.emb (ix2 (0 : Fin 1) q) = ix2 (0 : Fin 1) (colOf (((cfg5.win 6).blk t).view.emb (ix2 p q))) := by
    funext a; apply Fin.ext
    match a with
    | ⟨0, _⟩ => show win5_2.index t (0 : Fin 2) * 1 + 1 * 0 = 0; omega
    | ⟨1, _⟩ => show win5_2.index t (1 : Fin 2) * 128 + 1 * q.val = win5_6.index t (1 : Fin 2) * 128 + 1 * q.val; omega
  have h3 : ((cfg5.win 3).blk t).view.emb (ix2 (0 : Fin 1) q) = ix2 (0 : Fin 1) (colOf (((cfg5.win 6).blk t).view.emb (ix2 p q))) := by
    funext a; apply Fin.ext
    match a with
    | ⟨0, _⟩ => show win5_3.index t (0 : Fin 2) * 1 + 1 * 0 = 0; omega
    | ⟨1, _⟩ => show win5_3.index t (1 : Fin 2) * 128 + 1 * q.val = win5_6.index t (1 : Fin 2) * 128 + 1 * q.val; omega
  have h4 : ((cfg5.win 4).blk t).view.emb (ix2 (0 : Fin 1) q) = ix2 (0 : Fin 1) (colOf (((cfg5.win 6).blk t).view.emb (ix2 p q))) := by
    funext a; apply Fin.ext
    match a with
    | ⟨0, _⟩ => show win5_4.index t (0 : Fin 2) * 1 + 1 * 0 = 0; omega
    | ⟨1, _⟩ => show win5_4.index t (1 : Fin 2) * 128 + 1 * q.val = win5_6.index t (1 : Fin 2) * 128 + 1 * q.val; omega
  have h5 : ((cfg5.win 5).blk t).view.emb (ix2 (0 : Fin 1) q) = ix2 (0 : Fin 1) (colOf (((cfg5.win 6).blk t).view.emb (ix2 p q))) := by
    funext a; apply Fin.ext
    match a with
    | ⟨0, _⟩ => show win5_5.index t (0 : Fin 2) * 1 + 1 * 0 = 0; omega
    | ⟨1, _⟩ => show win5_5.index t (1 : Fin 2) * 128 + 1 * q.val = win5_6.index t (1 : Fin 2) * 128 + 1 * q.val; omega
  show bnRelu (V c main_v109 (((cfg5.win 0).blk t).view.emb (ix2 p q))) (V c main_v120 (((cfg5.win 1).blk t).view.emb (ix2 (0 : Fin 1) q)))
      (V c main_v121 (((cfg5.win 2).blk t).view.emb (ix2 (0 : Fin 1) q))) (V c main_v122 (((cfg5.win 3).blk t).view.emb (ix2 (0 : Fin 1) q)))
      (V c main_v123 (((cfg5.win 4).blk t).view.emb (ix2 (0 : Fin 1) q))) (V c main_v124 (((cfg5.win 5).blk t).view.emb (ix2 (0 : Fin 1) q))) = _
  rw [h0, h1, h2, h3, h4, h5]

/-- An index of the output array is in point `t`'s block iff each coordinate is in the block's range on its axis. -/
theorem mem_blk (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v125).slice (win5_6.rect t)).set ↔ _
  rw [View.set_slice_whole, Rect.mem_set_unit]
  exact Iff.rfl

/-- Every entry of the output array is in the block of the point its row falls to. -/
theorem cover (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : grid5.N = 20 := N_5
  have ht : (i 0).val / 5000 < cfg5.N := by show (i 0).val / 5000 < grid5.N; omega
  obtain ⟨e0, e1, e2, e3, e4, e5, e6, e7, e8, e9, e10, e11, e12, e13⟩ := index_facts ⟨(i 0).val / 5000, ht⟩
  refine ⟨⟨(i 0).val / 5000, ht⟩, flush5_6 _, ?_⟩
  rw [mem_blk]
  intro a
  match a with
  | ⟨0, _⟩ =>
    show win5_6.index ⟨(i 0).val / 5000, ht⟩ (0 : Fin 2) * 5000 ≤ (i 0).val ∧ (i 0).val < win5_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win5_6.index ⟨(i 0).val / 5000, ht⟩ (1 : Fin 2) * 128 ≤ (i 1).val ∧ (i 1).val < win5_6.index ⟨(i 0).val / 5000, ht⟩ (1 : Fin 2) * 128 + 128
    rw [e13]; omega

/-- The output array after the launch is the normalisation of the arrays the launch found. -/
theorem final (c : Dev nD) : (dat5 V c).arrAt 6 cfg5.N
    = bnArr (V c main_v109) (V c main_v120) (V c main_v121) (V c main_v122) (V c main_v123) (V c main_v124) :=
  (dat5 V c).arrAt_eq_of_cover 6 (bnArr (V c main_v109) (V c main_v120) (V c main_v121) (V c main_v122) (V c main_v123) (V c main_v124))
    (fun t _ => flushed_eq V c t) cover

end Cert.KernelIdeal.Region5

end
-- ==== Proof.Region6.lean ====
/-
  Launch 6: the two-layer head on the pooled [128, 128] array `main_v137`, with weights `main_arg9` and `main_arg11` and the two
  bias rows `main_v138` and `main_v139`. The grid has one point and every block is its whole array, so the output array
  `main_v140` the launch leaves is `mlpArr` of the arrays it found.
-/
import proofs.«127366_j78915729097080_1_alg».proof.Proof.Gen.KernelIdeal.Frame
import proofs.«127366_j78915729097080_1_alg».proof.Proof.Arrays

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Entry Cert.KernelIdeal.Arrays
open scoped BigOperators

variable (V : (c : Dev nD) → (b : Ref sig .tc) → Buf (Elt Ideal) ((c : Thread nD τ).loc b))

/-- The zero offset of a block's one store and of its loads. -/
theorem zero_off : (![0, 0] : Fin 2 → Nat) = fun _ => 0 := funext fun a => by fin_cases a <;> rfl

/-- The printed index maps at the one point: every block index is 0. -/
theorem index_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- What the one point writes back is the head of the whole arrays. -/
theorem flushed_eq (c : Dev nD) (t : Fin cfg6.N) :
    (dat6 V c).flushed 5 t = ((cfg6.win 5).blk t).view.read (Elt Ideal)
      (mlpArr (V c main_v137) (V c main_arg9) (V c main_v138) (V c main_arg11) (V c main_v139)) := by
  show (cfg6.win 5).cut (grid6.coords t) ((dat6 V c).after 5 t) = _
  rw [after6_5]
  unfold out6_5
  rw [View.canon_unit_zero zero_off]
  simp only [View.ld_unit_zero (S := S128x128) zero_off, View.ld_unit_zero (S := S128x64) zero_off, View.ld_unit_zero (S := S1x64) zero_off,
    View.ld_unit_zero (S := S64x10) zero_off, View.ld_unit_zero (S := S1x10) zero_off]
  obtain ⟨e0, e1, e2, e3, e4, e5, e6, e7, e8, e9, e10, e11⟩ := index_facts t
  refine funext fun (j : S128x10.Idx) => ?_
  obtain ⟨p, q, rfl⟩ : ∃ (p : Fin 128) (q : Fin 10), j = ix2 p q := ⟨j 0, j 1, eq_ix2 j⟩
  show k6_pay1 (iblk6 V c 0 t) (iblk6 V c 1 t) (iblk6 V c 2 t) (iblk6 V c 3 t) (iblk6 V c 4 t) (ix2 p q)
    = mlpArr (V c main_v137) (V c main_arg9) (V c main_v138) (V c main_arg11) (V c main_v139) (((cfg6.win 5).blk t).view.emb (ix2 p q))
  refine (mlp_body_apply (iblk6 V c 0 t) (iblk6 V c 1 t) (iblk6 V c 2 t) (iblk6 V c 3 t) (iblk6 V c 4 t) p q).trans ?_
  unfold mlpArr
  have hx : ∀ k : Fin 128, ((cfg6.win 0).blk t).view.emb (ix2 p k) = ix2 (rowOf (((cfg6.win 5).blk t).view.emb (ix2 p q))) k := fun k => by
    funext a; apply Fin.ext
    match a with
    | ⟨0, _⟩ => show win6_0.index t (0 : Fin 2) * 128 + 1 * p.val = win6_5.index t (0 : Fin 2) * 128 + 1 * p.val; omega
    | ⟨1, _⟩ => show win6_0.index t (1 : Fin 2) * 128 + 1 * k.val = k.val; omega
  have hw1 : ∀ (k : Fin 128) (j : Fin 64), ((cfg6.win 1).blk t).view.emb (ix2 k j) = ix2 k j := fun k j => by
    funext a; apply Fin.ext
    match a with
    | ⟨0, _⟩ => show win6_1.index t (0 : Fin 2) * 128 + 1 * k.val = k.val; omega
    | ⟨1, _⟩ => show win6_1.index t (1 : Fin 2) * 64 + 1 * j.val = j.val; omega
  have hb1 : ∀ j : Fin 64, ((cfg6.win 2).blk t).view.emb (ix2 (0 : Fin 1) j) = ix2 (0 : Fin 1) j := fun j => by
    funext a; apply Fin.ext
    match a with
    | ⟨0, _⟩ => show win6_2.index t (0 : Fin 2) * 1 + 1 * 0 = 0; omega
    | ⟨1, _⟩ => show win6_2.index t (1 : Fin 2) * 64 + 1 * j.val = j.val; omega
  have hw2 : ∀ j : Fin 64, ((cfg6.win 3).blk t).view.emb (ix2 j q) = ix2 j (colOf (((cfg6.win 5).blk t).view.emb (ix2 p q))) := fun j => by
    funext a; apply Fin.ext
    match a with
    | ⟨0, _⟩ => show win6_3.index t (0 : Fin 2) * 64 + 1 * j.val = j.val; omega
    | ⟨1, _⟩ => show win6_3.index t (1 : Fin 2) * 10 + 1 * q.val = win6_5.index t (1 : Fin 2) * 10 + 1 * q.val; omega
  have hb2 : ((cfg6.win 4).blk t).view.emb (ix2 (0 : Fin 1) q) = ix2 (0 : Fin 1) (colOf (((cfg6.win 5).blk t).view.emb (ix2 p q))) := by
    funext a; apply Fin.ext
    match a with
    | ⟨0, _⟩ => show win6_4.index t (0 : Fin 2) * 1 + 1 * 0 = 0; omega
    | ⟨1, _⟩ => show win6_4.index t (1 : Fin 2) * 10 + 1 * q.val = win6_5.index t (1 : Fin 2) * 10 + 1 * q.val; omega
  have rx : ∀ k : Fin 128, iblk6 V c 0 t (ix2 p k) = V c main_v137 (ix2 (rowOf (((cfg6.win 5).blk t).view.emb (ix2 p q))) k) := fun k =>
    (show iblk6 V c 0 t (ix2 p k) = V c main_v137 (((cfg6.win 0).blk t).view.emb (ix2 p k)) from rfl).trans (congrArg (V c main_v137) (hx k))
  have rw1 : ∀ (k : Fin 128) (j : Fin 64), iblk6 V c 1 t (ix2 k j) = V c main_arg9 (ix2 k j) := fun k j =>
    (show iblk6 V c 1 t (ix2 k j) = V c main_arg9 (((cfg6.win 1).blk t).view.emb (ix2 k j)) from rfl).trans (congrArg (V c main_arg9) (hw1 k j))
  have rb1 : ∀ j : Fin 64, iblk6 V c 2 t (ix2 (0 : Fin 1) j) = V c main_v138 (ix2 (0 : Fin 1) j) := fun j =>
    (show iblk6 V c 2 t (ix2 (0 : Fin 1) j) = V c main_v138 (((cfg6.win 2).blk t).view.emb (ix2 (0 : Fin 1) j)) from rfl).trans (congrArg (V c main_v138) (hb1 j))
  have rw2 : ∀ j : Fin 64, iblk6 V c 3 t (ix2 j q) = V c main_arg11 (ix2 j (colOf (((cfg6.win 5).blk t).view.emb (ix2 p q)))) := fun j =>
    (show iblk6 V c 3 t (ix2 j q) = V c main_arg11 (((cfg6.win 3).blk t).view.emb (ix2 j q)) from rfl).trans (congrArg (V c main_arg11) (hw2 j))
  have rb2 : iblk6 V c 4 t (ix2 (0 : Fin 1) q) = V c main_v139 (ix2 (0 : Fin 1) (colOf (((cfg6.win 5).blk t).view.emb (ix2 p q)))) :=
    (show iblk6 V c 4 t (ix2 (0 : Fin 1) q) = V c main_v139 (((cfg6.win 4).blk t).view.emb (ix2 (0 : Fin 1) q)) from rfl).trans (congrArg (V c main_v139) hb2)
  simp only [rx, rw1, rb1, rw2, rb2]

/-- An index of the output array is in the one point's block iff each coordinate is in the block's range on its axis. -/
theorem mem_blk (t : Fin cfg6.N) (i : S128x10.Idx) :
    i ∈ ((cfg6.win 5).blk t).view.set ↔ ∀ a : Fin 2, win6_5.index t a * S128x10.size a ≤ (i a).val ∧ (i a).val < win6_5.index t a * S128x10.size a + S128x10.size a := by
  show i ∈ ((View.whole main_v140).slice (win6_5.rect t)).set ↔ _
  rw [View.set_slice_whole, Rect.mem_set_unit]
  exact Iff.rfl

/-- Every entry of the output array is in the one point's block. -/
theorem cover (i : S128x10.Idx) : ∃ t : Fin cfg6.N, (cfg6.win 5).flush t = true ∧ i ∈ ((cfg6.win 5).blk t).view.set := by
  have hi0 : (i 0).val < 128 := (i 0).isLt
  have hi1 : (i 1).val < 10 := (i 1).isLt
  obtain ⟨e0, e1, e2, e3, e4, e5, e6, e7, e8, e9, e10, e11⟩ := index_facts t6_0
  refine ⟨t6_0, flush6_5 _, ?_⟩
  rw [mem_blk]
  intro a
  match a with
  | ⟨0, _⟩ =>
    show win6_5.index t6_0 (0 : Fin 2) * 128 ≤ (i 0).val ∧ (i 0).val < win6_5.index t6_0 (0 : Fin 2) * 128 + 128
    rw [e10]; omega
  | ⟨1, _⟩ =>
    show win6_5.index t6_0 (1 : Fin 2) * 10 ≤ (i 1).val ∧ (i 1).val < win6_5.index t6_0 (1 : Fin 2) * 10 + 10
    rw [e11]; omega

/-- The output array after the launch is the head of the arrays the launch found. -/
theorem final (c : Dev nD) : (dat6 V c).arrAt 5 cfg6.N
    = mlpArr (V c main_v137) (V c main_arg9) (V c main_v138) (V c main_arg11) (V c main_v139) :=
  (dat6 V c).arrAt_eq_of_cover 5 (mlpArr (V c main_v137) (V c main_arg9) (V c main_v138) (V c main_arg11) (V c main_v139))
    (fun t _ => flushed_eq V c t) cover

end Cert.KernelIdeal.Region6

end
-- ==== Proof.RefStages.lean ====
/-
  The reference, stage by stage, as the same whole-array functions the launches compute.

  Of the reference's 220 host operations seven groups are what the kernel does in its launches: three matrix products,
  three normalisations (bias, centring, scaling by the reciprocal root of the variance plus ε and by γ, shift by β,
  rectifier) and the two-layer head. Each group's result, read at an index through the reference's read-at-an-index
  lemmas, is `prodArr`, `bnArr` or `mlpArr` of the group's operands — the operands themselves left as the
  reference's own stages, never opened.
-/
import proofs.«127366_j78915729097080_1_alg».proof.Proof.RefReadPatched
import proofs.«127366_j78915729097080_1_alg».proof.Proof.Arrays

noncomputable section

namespace Cert.ReferenceIdeal.Stages

open Idealize.ShloMosaic Idealize.ShloMosaic.ValueIdx
open Cert.ReferenceIdeal Cert.ReferenceIdeal.ReadP Cert.KernelIdeal.Entry Cert.KernelIdeal.Arrays
open scoped BigOperators

/-- Two one-axis indices with the same coordinate are the same index. -/
theorem idx1_ext {n : ℕ} (u w : (⟨1, ![n]⟩ : Shape).Idx) (h : (u 0).val = (w 0).val) : u = w :=
  funext fun a => by match a with | ⟨0, _⟩ => exact Fin.ext h

/-- The normalisation of one entry depends on its six operands only. -/
theorem bnRelu_congr {a a' b b' c c' d d' e e' g g' : EReal} (ha : a = a') (hb : b = b') (hc : c = c') (hd : d = d')
    (he : e = e') (hg : g = g') : bnRelu a b c d e g = bnRelu a' b' c' d' e' g' := by
  subst ha hb hc hd he hg; rfl

/-- The reference's matrix product of layer 1 is `prodArr` of its two operands. -/
theorem ref_mm1 (x0 : (⟨S100000x128, .f32⟩ : BufTy).Contents (Elt Ideal)) (x3 : (⟨S3x128x128, .f32⟩ : BufTy).Contents (Elt Ideal)) :
    val_main_v32 (F := Ideal) x0 x3 = prodArr (x0) (val_main_v31 (F := Ideal) x3) := by
  funext i
  rw [val_main_v32_apply]
  refine Finset.sum_congr rfl fun k _ => ?_
  have el : lidx_main_v32 i k = ix2 (rowOf i) k := funext fun a => by match a with | ⟨0, _⟩ => rfl | ⟨1, _⟩ => rfl
  have er : ridx_main_v32 i k = ix2 k (colOf i) := funext fun a => by match a with | ⟨0, _⟩ => rfl | ⟨1, _⟩ => rfl
  rw [el, er]

/-- Layer 1 of the reference, from its aggregate to its rectified output, is `bnArr` of the aggregate and the five
    parameter rows: each row is sliced out of its [3, 128] argument, broadcast down the 100000 rows, and meets the
    aggregate entry by entry in the order (a + bias − mean) · rsqrt(var + ε) · γ + β, cut below at zero. -/
theorem ref_bn1 (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128, .f32⟩ : BufTy).Contents (Elt Ideal)) :
    val_main_v74 (F := Ideal) x0 x1 x3 x4 x5 x6 x7 x8
      = bnArr (val_main_v45 (F := Ideal) x0 x1 x3) (rowArr (val_main_v47 (F := Ideal) x4)) (rowArr (val_main_v52 (F := Ideal) x7))
          (rowArr (val_main_v57 (F := Ideal) x8)) (rowArr (val_main_v65 (F := Ideal) x5)) (rowArr (val_main_v70 (F := Ideal) x6)) := by
  funext i
  rw [val_main_v74_apply, val_main_v73_apply, val_main_v68_apply, val_main_v63_apply, val_main_v55_apply, val_main_v50_apply,
    val_main_v49_apply, val_main_v48_apply, val_main_v54_apply, val_main_v53_apply,
    val_main_v62_apply, val_main_v61_apply, val_main_v60_apply, val_main_v59_apply, val_main_v58_apply, val_main_cst_9_apply,
    val_main_v67_apply, val_main_v66_apply, val_main_v72_apply, val_main_v71_apply,
    val_main_call1_v0_apply, val_main_call1_cst_apply]
  show bnRelu _ _ _ _ _ _ = bnRelu _ _ _ _ _ _
  refine bnRelu_congr rfl ?_ ?_ ?_ ?_ ?_ <;> exact congrArg _ (idx1_ext _ _ rfl)

/-- The reference's matrix product of layer 2 is `prodArr` of its two operands. -/
theorem ref_mm2 (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128, .f32⟩ : BufTy).Contents (Elt Ideal)) :
    val_main_v77 (F := Ideal) x0 x1 x3 x4 x5 x6 x7 x8 = prodArr (val_main_v74 (F := Ideal) x0 x1 x3 x4 x5 x6 x7 x8) (val_main_v76 (F := Ideal) x3) := by
  funext i
  rw [val_main_v77_apply]
  refine Finset.sum_congr rfl fun k _ => ?_
  have el : lidx_main_v77 i k = ix2 (rowOf i) k := funext fun a => by match a with | ⟨0, _⟩ => rfl | ⟨1, _⟩ => rfl
  have er : ridx_main_v77 i k = ix2 k (colOf i) := funext fun a => by match a with | ⟨0, _⟩ => rfl | ⟨1, _⟩ => rfl
  rw [el, er]

/-- Layer 2 of the reference, from its aggregate to its rectified output, is `bnArr` of the aggregate and the five
    parameter rows: each row is sliced out of its [3, 128] argument, broadcast down the 100000 rows, and meets the
    aggregate entry by entry in the order (a + bias − mean) · rsqrt(var + ε) · γ + β, cut below at zero. -/
theorem ref_bn2 (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128, .f32⟩ : BufTy).Contents (Elt Ideal)) :
    val_main_v119 (F := Ideal) x0 x1 x3 x4 x5 x6 x7 x8
      = bnArr (val_main_v90 (F := Ideal) x0 x1 x3 x4 x5 x6 x7 x8) (rowArr (val_main_v92 (F := Ideal) x4)) (rowArr (val_main_v97 (F := Ideal) x7))
          (rowArr (val_main_v102 (F := Ideal) x8)) (rowArr (val_main_v110 (F := Ideal) x5)) (rowArr (val_main_v115 (F := Ideal) x6)) := by
  funext i
  rw [val_main_v119_apply, val_main_v118_apply, val_main_v113_apply, val_main_v108_apply, val_main_v100_apply, val_main_v95_apply,
    val_main_v94_apply, val_main_v93_apply, val_main_v99_apply, val_main_v98_apply,
    val_main_v107_apply, val_main_v106_apply, val_main_v105_apply, val_main_v104_apply, val_main_v103_apply, val_main_cst_13_apply,
    val_main_v112_apply, val_main_v111_apply, val_main_v117_apply, val_main_v116_apply,
    val_main_call2_v0_apply, val_main_call2_cst_apply]
  show bnRelu _ _ _ _ _ _ = bnRelu _ _ _ _ _ _
  refine bnRelu_congr rfl ?_ ?_ ?_ ?_ ?_ <;> exact congrArg _ (idx1_ext _ _ rfl)

/-- The reference's matrix product of layer 3 is `prodArr` of its two operands. -/
theorem ref_mm3 (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128, .f32⟩ : BufTy).Contents (Elt Ideal)) :
    val_main_v122 (F := Ideal) x0 x1 x3 x4 x5 x6 x7 x8 = prodArr (val_main_v119 (F := Ideal) x0 x1 x3 x4 x5 x6 x7 x8) (val_main_v121 (F := Ideal) x3) := by
  funext i
  rw [val_main_v122_apply]
  refine Finset.sum_congr rfl fun k _ => ?_
  have el : lidx_main_v122 i k = ix2 (rowOf i) k := funext fun a => by match a with | ⟨0, _⟩ => rfl | ⟨1, _⟩ => rfl
  have er : ridx_main_v122 i k = ix2 k (colOf i) := funext fun a => by match a with | ⟨0, _⟩ => rfl | ⟨1, _⟩ => rfl
  rw [el, er]

/-- Layer 3 of the reference, from its aggregate to its rectified output, is `bnArr` of the aggregate and the five
    parameter rows: each row is sliced out of its [3, 128] argument, broadcast down the 100000 rows, and meets the
    aggregate entry by entry in the order (a + bias − mean) · rsqrt(var + ε) · γ + β, cut below at zero. -/
theorem ref_bn3 (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128, .f32⟩ : BufTy).Contents (Elt Ideal)) :
    val_main_v164 (F := Ideal) x0 x1 x3 x4 x5 x6 x7 x8
      = bnArr (val_main_v135 (F := Ideal) x0 x1 x3 x4 x5 x6 x7 x8) (rowArr (val_main_v137 (F := Ideal) x4)) (rowArr (val_main_v142 (F := Ideal) x7))
          (rowArr (val_main_v147 (F := Ideal) x8)) (rowArr (val_main_v155 (F := Ideal) x5)) (rowArr (val_main_v160 (F := Ideal) x6)) := by
  funext i
  rw [val_main_v164_apply, val_main_v163_apply, val_main_v158_apply, val_main_v153_apply, val_main_v145_apply, val_main_v140_apply,
    val_main_v139_apply, val_main_v138_apply, val_main_v144_apply, val_main_v143_apply,
    val_main_v152_apply, val_main_v151_apply, val_main_v150_apply, val_main_v149_apply, val_main_v148_apply, val_main_cst_17_apply,
    val_main_v157_apply, val_main_v156_apply, val_main_v162_apply, val_main_v161_apply,
    val_main_call3_v0_apply, val_main_call3_cst_apply]
  show bnRelu _ _ _ _ _ _ = bnRelu _ _ _ _ _ _
  refine bnRelu_congr rfl ?_ ?_ ?_ ?_ ?_ <;> exact congrArg _ (idx1_ext _ _ rfl)

/-- The reference's head — a product with the first weights, the first bias row broadcast over the 128 rows, the
    rectifier, a product with the second weights, the second bias row — is `mlpArr` of the pooled array, the two
    weight arrays and the two bias vectors laid as rows. -/
theorem ref_mlp (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S3x128x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128, .f32⟩ : BufTy).Contents (Elt Ideal)) (x9 : (⟨S128x64, .f32⟩ : BufTy).Contents (Elt Ideal)) (x10 : (⟨S64, .f32⟩ : BufTy).Contents (Elt Ideal)) (x11 : (⟨S64x10, .f32⟩ : BufTy).Contents (Elt Ideal)) (x12 : (⟨S10, .f32⟩ : BufTy).Contents (Elt Ideal)) :
    val_main_v185 (F := Ideal) x0 x1 x2 x3 x4 x5 x6 x7 x8 x9 x10 x11 x12
      = mlpArr (val_main_v176 (F := Ideal) x0 x1 x2 x3 x4 x5 x6 x7 x8) x9 (rowArr x10) x11 (rowArr x12) := by
  funext i
  rw [val_main_v185_apply, val_main_v184_apply, val_main_v183_apply, val_main_v182_apply]
  show (∑ k : Fin 64, _) + _ = (∑ j : Fin 64, _) + _
  refine congrArg₂ (· + ·) (Finset.sum_congr rfl fun j _ => ?_) (congrArg _ (idx1_ext _ _ rfl))
  have er : ridx_main_v182 i j = ix2 j (colOf i) := funext fun a => by match a with | ⟨0, _⟩ => rfl | ⟨1, _⟩ => rfl
  rw [er]
  refine congrArg (· * x11 (ix2 j (colOf i))) ?_
  rw [val_main_v181_apply, val_main_v180_apply, val_main_v179_apply, val_main_v178_apply, val_main_v177_apply,
    val_main_call4_v0_apply, val_main_call4_cst_apply]
  show max ((∑ k : Fin 128, _) + _) _ = max ((∑ k : Fin 128, _) + _) _
  refine congrArg₂ (fun s b => max (s + b) (Ideal.ofBits .f32 0x00000000#32)) (Finset.sum_congr rfl fun k _ => ?_) (congrArg _ (idx1_ext _ _ rfl))
  have el : lidx_main_v177 (lidx_main_v182 i j) k = ix2 (rowOf i) k := funext fun a => by match a with | ⟨0, _⟩ => rfl | ⟨1, _⟩ => rfl
  have er' : ridx_main_v177 (lidx_main_v182 i j) k = ix2 k j := funext fun a => by match a with | ⟨0, _⟩ => rfl | ⟨1, _⟩ => rfl
  rw [el, er']

end Cert.ReferenceIdeal.Stages

end
-- ==== Proof.KeepArgsA.lean ====
/-
  The argument buffers through the run, first part: no host operation writes an argument and no launch has one as an output, so at
  every boundary an argument buffer still holds what it held at the launch of the program. Stated at the boundaries where a later
  host operation or launch reads the argument.
-/
import proofs.«127366_j78915729097080_1_alg».proof.Proof.Gen.KernelIdeal.Frame
import Idealize.ShloMosaic.PureOps.Ideal

set_option maxRecDepth 16384

noncomputable section

namespace Cert.KernelIdeal.KeepA

open Idealize.ShloMosaic Idealize.ShloMosaic.TcCoe Idealize.SL.Sem
open Cert.KernelIdeal Cert.KernelIdeal.Gen

/-- A buffer that no operation of a stretch of host operations writes holds after the stretch what it held before. -/
macro "host_keeps" : tactic => `(tactic| exact StableHlo.after_of_forall_not_mem _ _ (List.forall_iff_forall_mem.mp (by
  simp only [hostOps0, hostOps0_1, hostOps0_2, hostOps1, hostOps2, hostOps3, hostOps4, hostOps5, hostOps6,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg) (c : Dev nD)

theorem k3_main_arg0 : W3 (F := Ideal) m ρ c (Proc.devRef .tc main_arg0) = m ((c : Thread nD τ).loc main_arg0) :=
  calc W3 m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
    _ = m ((c : Thread nD τ).loc main_arg0) := rfl
theorem k2_main_arg3 : W2 (F := Ideal) m ρ c (Proc.devRef .tc main_arg3) = m ((c : Thread nD τ).loc main_arg3) :=
  calc W2 m ρ c (Proc.devRef .tc main_arg3)
    _ = W1 m ρ c (Proc.devRef .tc main_arg3) := by host_keeps
    _ = W0 m ρ c (Proc.devRef .tc main_arg3) := by host_keeps
    _ = m ((c : Thread nD τ).loc main_arg3) := rfl
theorem k6_main_arg3 : W6 (F := Ideal) m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by host_keeps
    _ = W3 m ρ c (Proc.devRef .tc main_arg3) := W4_of_ne m ρ c main_arg3 (by decide)
    _ = W2 m ρ c (Proc.devRef .tc main_arg3) := by host_keeps
    _ = m ((c : Thread nD τ).loc main_arg3) := k2_main_arg3 m ρ c
theorem k10_main_arg3 : W10 (F := Ideal) m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := by host_keeps
    _ = W7 m ρ c (Proc.devRef .tc main_arg3) := W8_of_ne m ρ c main_arg3 (by decide)
    _ = W6 m ρ c (Proc.devRef .tc main_arg3) := by host_keeps
    _ = m ((c : Thread nD τ).loc main_arg3) := k6_main_arg3 m ρ c
theorem k4_main_arg4 : W4 (F := Ideal) m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps
    _ = W1 m ρ c (Proc.devRef .tc main_arg4) := by host_keeps
    _ = W0 m ρ c (Proc.devRef .tc main_arg4) := by host_keeps
    _ = m ((c : Thread nD τ).loc main_arg4) := rfl
theorem k8_main_arg4 : W8 (F := Ideal) m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_keeps
    _ = W5 m ρ c (Proc.devRef .tc main_arg4) := W6_of_ne m ρ c main_arg4 (by decide)
    _ = W4 m ρ c (Proc.devRef .tc main_arg4) := by host_keeps
    _ = m ((c : Thread nD τ).loc main_arg4) := k4_main_arg4 m ρ c
theorem k12_main_arg4 : W12 (F := Ideal) m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := by host_keeps
    _ = W9 m ρ c (Proc.devRef .tc main_arg4) := W10_of_ne m ρ c main_arg4 (by decide)
    _ = W8 m ρ c (Proc.devRef .tc main_arg4) := by host_keeps
    _ = m ((c : Thread nD τ).loc main_arg4) := k8_main_arg4 m ρ c
theorem k4_main_arg5 : W4 (F := Ideal) m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps
    _ = W1 m ρ c (Proc.devRef .tc main_arg5) := by host_keeps
    _ = W0 m ρ c (Proc.devRef .tc main_arg5) := by host_keeps
    _ = m ((c : Thread nD τ).loc main_arg5) := rfl
theorem k8_main_arg5 : W8 (F := Ideal) m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by host_keeps
    _ = W5 m ρ c (Proc.devRef .tc main_arg5) := W6_of_ne m ρ c main_arg5 (by decide)
    _ = W4 m ρ c (Proc.devRef .tc main_arg5) := by host_keeps
    _ = m ((c : Thread nD τ).loc main_arg5) := k4_main_arg5 m ρ c
theorem k12_main_arg5 : W12 (F := Ideal) m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := by host_keeps
    _ = W9 m ρ c (Proc.devRef .tc main_arg5) := W10_of_ne m ρ c main_arg5 (by decide)
    _ = W8 m ρ c (Proc.devRef .tc main_arg5) := by host_keeps
    _ = m ((c : Thread nD τ).loc main_arg5) := k8_main_arg5 m ρ c
theorem k4_main_arg6 : W4 (F := Ideal) m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by host_keeps
    _ = W1 m ρ c (Proc.devRef .tc main_arg6) := by host_keeps
    _ = W0 m ρ c (Proc.devRef .tc main_arg6) := by host_keeps
    _ = m ((c : Thread nD τ).loc main_arg6) := rfl
theorem k8_main_arg6 : W8 (F := Ideal) m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by host_keeps
    _ = W5 m ρ c (Proc.devRef .tc main_arg6) := W6_of_ne m ρ c main_arg6 (by decide)
    _ = W4 m ρ c (Proc.devRef .tc main_arg6) := by host_keeps
    _ = m ((c : Thread nD τ).loc main_arg6) := k4_main_arg6 m ρ c
theorem k12_main_arg6 : W12 (F := Ideal) m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := by host_keeps
    _ = W9 m ρ c (Proc.devRef .tc main_arg6) := W10_of_ne m ρ c main_arg6 (by decide)
    _ = W8 m ρ c (Proc.devRef .tc main_arg6) := by host_keeps
    _ = m ((c : Thread nD τ).loc main_arg6) := k8_main_arg6 m ρ c
theorem k4_main_arg7 : W4 (F := Ideal) m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keeps
    _ = W1 m ρ c (Proc.devRef .tc main_arg7) := by host_keeps
    _ = W0 m ρ c (Proc.devRef .tc main_arg7) := by host_keeps
    _ = m ((c : Thread nD τ).loc main_arg7) := rfl
theorem k8_main_arg7 : W8 (F := Ideal) m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keeps
    _ = W5 m ρ c (Proc.devRef .tc main_arg7) := W6_of_ne m ρ c main_arg7 (by decide)
    _ = W4 m ρ c (Proc.devRef .tc main_arg7) := by host_keeps
    _ = m ((c : Thread nD τ).loc main_arg7) := k4_main_arg7 m ρ c
theorem k12_main_arg7 : W12 (F := Ideal) m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := by host_keeps
    _ = W9 m ρ c (Proc.devRef .tc main_arg7) := W10_of_ne m ρ c main_arg7 (by decide)
    _ = W8 m ρ c (Proc.devRef .tc main_arg7) := by host_keeps
    _ = m ((c : Thread nD τ).loc main_arg7) := k8_main_arg7 m ρ c
theorem k4_main_arg8 : W4 (F := Ideal) m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps
    _ = W1 m ρ c (Proc.devRef .tc main_arg8) := by host_keeps
    _ = W0 m ρ c (Proc.devRef .tc main_arg8) := by host_keeps
    _ = m ((c : Thread nD τ).loc main_arg8) := rfl
theorem k8_main_arg8 : W8 (F := Ideal) m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keeps
    _ = W5 m ρ c (Proc.devRef .tc main_arg8) := W6_of_ne m ρ c main_arg8 (by decide)
    _ = W4 m ρ c (Proc.devRef .tc main_arg8) := by host_keeps
    _ = m ((c : Thread nD τ).loc main_arg8) := k4_main_arg8 m ρ c
theorem k12_main_arg8 : W12 (F := Ideal) m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_keeps
    _ = W9 m ρ c (Proc.devRef .tc main_arg8) := W10_of_ne m ρ c main_arg8 (by decide)
    _ = W8 m ρ c (Proc.devRef .tc main_arg8) := by host_keeps
    _ = m ((c : Thread nD τ).loc main_arg8) := k8_main_arg8 m ρ c
theorem k14_main_arg2 : W14 (F := Ideal) m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := by host_keeps
    _ = W11 m ρ c (Proc.devRef .tc main_arg2) := W12_of_ne m ρ c main_arg2 (by decide)
    _ = W10 m ρ c (Proc.devRef .tc main_arg2) := by host_keeps
    _ = W9 m ρ c (Proc.devRef .tc main_arg2) := W10_of_ne m ρ c main_arg2 (by decide)
    _ = W8 m ρ c (Proc.devRef .tc main_arg2) := by host_keeps
    _ = W7 m ρ c (Proc.devRef .tc main_arg2) := W8_of_ne m ρ c main_arg2 (by decide)
    _ = W6 m ρ c (Proc.devRef .tc main_arg2) := by host_keeps
    _ = W5 m ρ c (Proc.devRef .tc main_arg2) := W6_of_ne m ρ c main_arg2 (by decide)
    _ = W4 m ρ c (Proc.devRef .tc main_arg2) := by host_keeps
    _ = W3 m ρ c (Proc.devRef .tc main_arg2) := W4_of_ne m ρ c main_arg2 (by decide)
    _ = W2 m ρ c (Proc.devRef .tc main_arg2) := by host_keeps
    _ = W1 m ρ c (Proc.devRef .tc main_arg2) := by host_keeps
    _ = W0 m ρ c (Proc.devRef .tc main_arg2) := by host_keeps
    _ = m ((c : Thread nD τ).loc main_arg2) := rfl
theorem k14_main_arg10 : W14 (F := Ideal) m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := by host_keeps
    _ = W11 m ρ c (Proc.devRef .tc main_arg10) := W12_of_ne m ρ c main_arg10 (by decide)
    _ = W10 m ρ c (Proc.devRef .tc main_arg10) := by host_keeps
    _ = W9 m ρ c (Proc.devRef .tc main_arg10) := W10_of_ne m ρ c main_arg10 (by decide)
    _ = W8 m ρ c (Proc.devRef .tc main_arg10) := by host_keeps
    _ = W7 m ρ c (Proc.devRef .tc main_arg10) := W8_of_ne m ρ c main_arg10 (by decide)
    _ = W6 m ρ c (Proc.devRef .tc main_arg10) := by host_keeps
    _ = W5 m ρ c (Proc.devRef .tc main_arg10) := W6_of_ne m ρ c main_arg10 (by decide)
    _ = W4 m ρ c (Proc.devRef .tc main_arg10) := by host_keeps
    _ = W3 m ρ c (Proc.devRef .tc main_arg10) := W4_of_ne m ρ c main_arg10 (by decide)
    _ = W2 m ρ c (Proc.devRef .tc main_arg10) := by host_keeps
    _ = W1 m ρ c (Proc.devRef .tc main_arg10) := by host_keeps
    _ = W0 m ρ c (Proc.devRef .tc main_arg10) := by host_keeps
    _ = m ((c : Thread nD τ).loc main_arg10) := rfl
theorem k14_main_arg12 : W14 (F := Ideal) m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := by host_keeps
    _ = W11 m ρ c (Proc.devRef .tc main_arg12) := W12_of_ne m ρ c main_arg12 (by decide)
    _ = W10 m ρ c (Proc.devRef .tc main_arg12) := by host_keeps
    _ = W9 m ρ c (Proc.devRef .tc main_arg12) := W10_of_ne m ρ c main_arg12 (by decide)
    _ = W8 m ρ c (Proc.devRef .tc main_arg12) := by host_keeps
    _ = W7 m ρ c (Proc.devRef .tc main_arg12) := W8_of_ne m ρ c main_arg12 (by decide)
    _ = W6 m ρ c (Proc.devRef .tc main_arg12) := by host_keeps
    _ = W5 m ρ c (Proc.devRef .tc main_arg12) := W6_of_ne m ρ c main_arg12 (by decide)
    _ = W4 m ρ c (Proc.devRef .tc main_arg12) := by host_keeps
    _ = W3 m ρ c (Proc.devRef .tc main_arg12) := W4_of_ne m ρ c main_arg12 (by decide)
    _ = W2 m ρ c (Proc.devRef .tc main_arg12) := by host_keeps
    _ = W1 m ρ c (Proc.devRef .tc main_arg12) := by host_keeps
    _ = W0 m ρ c (Proc.devRef .tc main_arg12) := by host_keeps
    _ = m ((c : Thread nD τ).loc main_arg12) := rfl

end Cert.KernelIdeal.KeepA

end
-- ==== Proof.KeepArgsB.lean ====
/-
  The argument buffers through the run, second part (the two weight arrays of the head, read by the last launch).
-/
import proofs.«127366_j78915729097080_1_alg».proof.Proof.Gen.KernelIdeal.Frame
import Idealize.ShloMosaic.PureOps.Ideal

set_option maxRecDepth 16384

noncomputable section

namespace Cert.KernelIdeal.KeepB

open Idealize.ShloMosaic Idealize.ShloMosaic.TcCoe Idealize.SL.Sem
open Cert.KernelIdeal Cert.KernelIdeal.Gen

/-- A buffer that no operation of a stretch of host operations writes holds after the stretch what it held before. -/
macro "host_keeps" : tactic => `(tactic| exact StableHlo.after_of_forall_not_mem _ _ (List.forall_iff_forall_mem.mp (by
  simp only [hostOps0, hostOps0_1, hostOps0_2, hostOps1, hostOps2, hostOps3, hostOps4, hostOps5, hostOps6,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg) (c : Dev nD)

theorem k15_main_arg9 : W15 (F := Ideal) m ρ c (Proc.devRef .tc main_arg9) = m ((c : Thread nD τ).loc main_arg9) :=
  calc W15 m ρ c (Proc.devRef .tc main_arg9)
    _ = W14 m ρ c (Proc.devRef .tc main_arg9) := by host_keeps
    _ = W13 m ρ c (Proc.devRef .tc main_arg9) := W14_of_ne m ρ c main_arg9 (by decide)
    _ = W12 m ρ c (Proc.devRef .tc main_arg9) := by host_keeps
    _ = W11 m ρ c (Proc.devRef .tc main_arg9) := W12_of_ne m ρ c main_arg9 (by decide)
    _ = W10 m ρ c (Proc.devRef .tc main_arg9) := by host_keeps
    _ = W9 m ρ c (Proc.devRef .tc main_arg9) := W10_of_ne m ρ c main_arg9 (by decide)
    _ = W8 m ρ c (Proc.devRef .tc main_arg9) := by host_keeps
    _ = W7 m ρ c (Proc.devRef .tc main_arg9) := W8_of_ne m ρ c main_arg9 (by decide)
    _ = W6 m ρ c (Proc.devRef .tc main_arg9) := by host_keeps
    _ = W5 m ρ c (Proc.devRef .tc main_arg9) := W6_of_ne m ρ c main_arg9 (by decide)
    _ = W4 m ρ c (Proc.devRef .tc main_arg9) := by host_keeps
    _ = W3 m ρ c (Proc.devRef .tc main_arg9) := W4_of_ne m ρ c main_arg9 (by decide)
    _ = W2 m ρ c (Proc.devRef .tc main_arg9) := by host_keeps
    _ = W1 m ρ c (Proc.devRef .tc main_arg9) := by host_keeps
    _ = W0 m ρ c (Proc.devRef .tc main_arg9) := by host_keeps
    _ = m ((c : Thread nD τ).loc main_arg9) := rfl
theorem k15_main_arg11 : W15 (F := Ideal) m ρ c (Proc.devRef .tc main_arg11) = m ((c : Thread nD τ).loc main_arg11) :=
  calc W15 m ρ c (Proc.devRef .tc main_arg11)
    _ = W14 m ρ c (Proc.devRef .tc main_arg11) := by host_keeps
    _ = W13 m ρ c (Proc.devRef .tc main_arg11) := W14_of_ne m ρ c main_arg11 (by decide)
    _ = W12 m ρ c (Proc.devRef .tc main_arg11) := by host_keeps
    _ = W11 m ρ c (Proc.devRef .tc main_arg11) := W12_of_ne m ρ c main_arg11 (by decide)
    _ = W10 m ρ c (Proc.devRef .tc main_arg11) := by host_keeps
    _ = W9 m ρ c (Proc.devRef .tc main_arg11) := W10_of_ne m ρ c main_arg11 (by decide)
    _ = W8 m ρ c (Proc.devRef .tc main_arg11) := by host_keeps
    _ = W7 m ρ c (Proc.devRef .tc main_arg11) := W8_of_ne m ρ c main_arg11 (by decide)
    _ = W6 m ρ c (Proc.devRef .tc main_arg11) := by host_keeps
    _ = W5 m ρ c (Proc.devRef .tc main_arg11) := W6_of_ne m ρ c main_arg11 (by decide)
    _ = W4 m ρ c (Proc.devRef .tc main_arg11) := by host_keeps
    _ = W3 m ρ c (Proc.devRef .tc main_arg11) := W4_of_ne m ρ c main_arg11 (by decide)
    _ = W2 m ρ c (Proc.devRef .tc main_arg11) := by host_keeps
    _ = W1 m ρ c (Proc.devRef .tc main_arg11) := by host_keeps
    _ = W0 m ρ c (Proc.devRef .tc main_arg11) := by host_keeps
    _ = m ((c : Thread nD τ).loc main_arg11) := rfl

end Cert.KernelIdeal.KeepB

end
-- ==== Proof.KeepEdges.lean ====
/-
  The source words, the destination words and the edge weights — computed once, before the first launch — through the run: no
  later host operation writes them and no launch has them among its arrays, so at the boundaries where the three aggregations
  read them they still hold what they held when the first launch was entered. Likewise a layer's output across the two host
  operations that slice the next layer's weights.
-/
import proofs.«127366_j78915729097080_1_alg».proof.Proof.Gen.KernelIdeal.Frame
import Idealize.ShloMosaic.PureOps.Ideal

set_option maxRecDepth 16384

noncomputable section

namespace Cert.KernelIdeal.KeepE

open Idealize.ShloMosaic Idealize.ShloMosaic.TcCoe Idealize.SL.Sem
open Cert.KernelIdeal Cert.KernelIdeal.Gen

/-- A buffer that no operation of a stretch of host operations writes holds after the stretch what it held before. -/
macro "host_keeps" : tactic => `(tactic| exact StableHlo.after_of_forall_not_mem _ _ (List.forall_iff_forall_mem.mp (by
  simp only [hostOps0, hostOps0_1, hostOps0_2, hostOps1, hostOps2, hostOps3, hostOps4, hostOps5, hostOps6,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg) (c : Dev nD)

theorem k4_main_v3 : W4 (F := Ideal) m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
    _ = W3 m ρ c (Proc.devRef .tc main_v3) := rfl
theorem k8_main_v3 : W8 (F := Ideal) m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps
    _ = W5 m ρ c (Proc.devRef .tc main_v3) := W6_of_ne m ρ c main_v3 (by decide)
    _ = W4 m ρ c (Proc.devRef .tc main_v3) := by host_keeps
    _ = W3 m ρ c (Proc.devRef .tc main_v3) := k4_main_v3 m ρ c
theorem k12_main_v3 : W12 (F := Ideal) m ρ c (Proc.devRef .tc main_v3) = W3 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by host_keeps
    _ = W9 m ρ c (Proc.devRef .tc main_v3) := W10_of_ne m ρ c main_v3 (by decide)
    _ = W8 m ρ c (Proc.devRef .tc main_v3) := by host_keeps
    _ = W3 m ρ c (Proc.devRef .tc main_v3) := k8_main_v3 m ρ c
theorem k4_main_v6 : W4 (F := Ideal) m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
    _ = W3 m ρ c (Proc.devRef .tc main_v6) := rfl
theorem k8_main_v6 : W8 (F := Ideal) m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keeps
    _ = W5 m ρ c (Proc.devRef .tc main_v6) := W6_of_ne m ρ c main_v6 (by decide)
    _ = W4 m ρ c (Proc.devRef .tc main_v6) := by host_keeps
    _ = W3 m ρ c (Proc.devRef .tc main_v6) := k4_main_v6 m ρ c
theorem k12_main_v6 : W12 (F := Ideal) m ρ c (Proc.devRef .tc main_v6) = W3 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := by host_keeps
    _ = W9 m ρ c (Proc.devRef .tc main_v6) := W10_of_ne m ρ c main_v6 (by decide)
    _ = W8 m ρ c (Proc.devRef .tc main_v6) := by host_keeps
    _ = W3 m ρ c (Proc.devRef .tc main_v6) := k8_main_v6 m ρ c
theorem k4_main_v29 : W4 (F := Ideal) m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)
    _ = W3 m ρ c (Proc.devRef .tc main_v29) := rfl
theorem k8_main_v29 : W8 (F := Ideal) m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by host_keeps
    _ = W5 m ρ c (Proc.devRef .tc main_v29) := W6_of_ne m ρ c main_v29 (by decide)
    _ = W4 m ρ c (Proc.devRef .tc main_v29) := by host_keeps
    _ = W3 m ρ c (Proc.devRef .tc main_v29) := k4_main_v29 m ρ c
theorem k12_main_v29 : W12 (F := Ideal) m ρ c (Proc.devRef .tc main_v29) = W3 m ρ c (Proc.devRef .tc main_v29) :=
  calc W12 m ρ c (Proc.devRef .tc main_v29)
    _ = W11 m ρ c (Proc.devRef .tc main_v29) := W12_of_ne m ρ c main_v29 (by decide)
    _ = W10 m ρ c (Proc.devRef .tc main_v29) := by host_keeps
    _ = W9 m ρ c (Proc.devRef .tc main_v29) := W10_of_ne m ρ c main_v29 (by decide)
    _ = W8 m ρ c (Proc.devRef .tc main_v29) := by host_keeps
    _ = W3 m ρ c (Proc.devRef .tc main_v29) := k8_main_v29 m ρ c
theorem k7_main_v61 : W7 (F := Ideal) m ρ c (Proc.devRef .tc main_v61) = W6 m ρ c (Proc.devRef .tc main_v61) :=
  calc W7 m ρ c (Proc.devRef .tc main_v61)
    _ = W6 m ρ c (Proc.devRef .tc main_v61) := by host_keeps
    _ = W6 m ρ c (Proc.devRef .tc main_v61) := rfl
theorem k11_main_v93 : W11 (F := Ideal) m ρ c (Proc.devRef .tc main_v93) = W10 m ρ c (Proc.devRef .tc main_v93) :=
  calc W11 m ρ c (Proc.devRef .tc main_v93)
    _ = W10 m ρ c (Proc.devRef .tc main_v93) := by host_keeps
    _ = W10 m ρ c (Proc.devRef .tc main_v93) := rfl

end Cert.KernelIdeal.KeepE

end
-- ==== Proof.Chain.lean ====
/-
  The kernel's buffers at each boundary of its run, against the reference's stages.

  Both programs apply the same host operations around what the kernel does in its launches, so the two computations are
  walked side by side, boundary by boundary. At the entry of the first launch the source words, the destination words,
  the edge weights and the first weight matrix are the reference's stages of the same names (the same operations on the
  same arguments). A launch's output is `prodArr` / `bnArr` / `mlpArr` of the arrays it found, which are the
  reference's stages, and so is the reference's stage. A stretch of host operations — gather the rows at the source words,
  scale by the edge weights, scatter-add at the destination words; slice and re-lay the parameter rows; pool and
  divide by the counts — is the same function on both sides of values already identified. At the last boundary the result
  buffer holds the reference's last stage.
-/
import proofs.«127366_j78915729097080_1_alg».proof.Proof.Region0
import proofs.«127366_j78915729097080_1_alg».proof.Proof.Region1
import proofs.«127366_j78915729097080_1_alg».proof.Proof.Region2
import proofs.«127366_j78915729097080_1_alg».proof.Proof.Region3
import proofs.«127366_j78915729097080_1_alg».proof.Proof.Region4
import proofs.«127366_j78915729097080_1_alg».proof.Proof.Region5
import proofs.«127366_j78915729097080_1_alg».proof.Proof.Region6
import proofs.«127366_j78915729097080_1_alg».proof.Proof.RefStages
import proofs.«127366_j78915729097080_1_alg».proof.Proof.KeepArgsA
import proofs.«127366_j78915729097080_1_alg».proof.Proof.KeepArgsB
import proofs.«127366_j78915729097080_1_alg».proof.Proof.KeepEdges
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Arrays
open Cert.KernelIdeal.KeepA Cert.KernelIdeal.KeepB Cert.KernelIdeal.KeepE
open Cert.ReferenceIdeal.ReadP Cert.ReferenceIdeal.Stages

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)

/-! ## At the entry of the first launch -/

theorem f3_v3 : W3 (F := Ideal) m ρ c (Proc.devRef .tc main_v3) = val_main_v3 (F := Ideal) x1 := by
  show StableHlo.after hostOps0_2 (StableHlo.after hostOps0_1 (StableHlo.after hostOps0 (W0 m ρ c))) (Proc.devRef .tc main_v3) = _
  after_results_simp <;> rfl

theorem f3_v6 : W3 (F := Ideal) m ρ c (Proc.devRef .tc main_v6) = val_main_v6 (F := Ideal) x1 := by
  show StableHlo.after hostOps0_2 (StableHlo.after hostOps0_1 (StableHlo.after hostOps0 (W0 m ρ c))) (Proc.devRef .tc main_v6) = _
  after_results_simp <;> rfl

/-- The selection between the reciprocal root and zero, as the called function's three operations leave it in the
    buffers they are typed at: the transport of contents between a buffer's own type and the value's type is the
    identity. -/
theorem select_through (a : BufTy.Contents (Elt Ideal) ⟨Cert.ReferenceIdeal.S100000, .i1⟩)
    (b : BufTy.Contents (Elt Ideal) ⟨Cert.ReferenceIdeal.S100000, .f32⟩) (z : BufTy.Contents (Elt Ideal) ⟨Cert.ReferenceIdeal.S_, .f32⟩) :
    (TRef.of (sig := sig) (T := ⟨S100000, .f32⟩) main_v14).toBuf (Val := Elt Ideal)
      (select ((TRef.of (sig := sig) (T := ⟨S100000, .i1⟩) main_v12).ofBuf (Val := Elt Ideal) a)
        ((TRef.of (sig := sig) (T := ⟨S100000, .f32⟩) main_v13).ofBuf (Val := Elt Ideal) b)
        ((TRef.of (sig := sig) (T := ⟨S100000, .f32⟩) main_call0_v1).ofBuf (Val := Elt Ideal)
          ((TRef.of (sig := sig) (T := ⟨S100000, .f32⟩) main_call0_v1).toBuf (Val := Elt Ideal)
            (broadcastInDim S100000 ![] bcast_S_S100000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal) z))))))))
    = select a b (broadcastInDim Cert.ReferenceIdeal.S100000 ![] Cert.ReferenceIdeal.Gen.bcast_S_S100000 (id z)) := rfl

/-- The guarded reciprocal root of the degree after the first two stretches: the comparison, the reciprocal root and
    the zero it is guarded with are read first, then the selection between them. -/
theorem g2_v14 : StableHlo.after hostOps0_1 (StableHlo.after hostOps0 (W0 (F := Ideal) m ρ c)) (Proc.devRef .tc main_v14) = val_main_v14 (F := Ideal) x1 := by
  have e12 : StableHlo.after hostOps0 (W0 (F := Ideal) m ρ c) (Proc.devRef .tc main_v12) = val_main_v12 (F := Ideal) x1 := by
    after_results_simp <;> rfl
  have e13 : StableHlo.after hostOps0 (W0 (F := Ideal) m ρ c) (Proc.devRef .tc main_v13) = val_main_v13 (F := Ideal) x1 := by
    after_results_simp <;> rfl
  have ec : StableHlo.after hostOps0 (W0 (F := Ideal) m ρ c) (Proc.devRef .tc main_cst_2) = val_main_cst_2 (F := Ideal) := by
    after_results_simp <;> rfl
  generalize StableHlo.after hostOps0 (W0 m ρ c) = V1 at e12 e13 ec ⊢
  after_results_simp
  rw [e12, e13, ec]
  exact select_through (val_main_v12 (F := Ideal) x1) (val_main_v13 (F := Ideal) x1) (val_main_cst_2 (F := Ideal))

theorem g2_v3 : StableHlo.after hostOps0_1 (StableHlo.after hostOps0 (W0 (F := Ideal) m ρ c)) (Proc.devRef .tc main_v3) = val_main_v3 (F := Ideal) x1 := by
  after_results_simp <;> rfl

theorem g2_v6 : StableHlo.after hostOps0_1 (StableHlo.after hostOps0 (W0 (F := Ideal) m ρ c)) (Proc.devRef .tc main_v6) = val_main_v6 (F := Ideal) x1 := by
  after_results_simp <;> rfl

theorem f3_v29 : W3 (F := Ideal) m ρ c (Proc.devRef .tc main_v29) = val_main_v29 (F := Ideal) x1 := by
  show StableHlo.after hostOps0_2 (StableHlo.after hostOps0_1 (StableHlo.after hostOps0 (W0 m ρ c))) (Proc.devRef .tc main_v29) = _
  have e14 := g2_v14 m ρ c
  have e3 := g2_v3 m ρ c
  have e6 := g2_v6 m ρ c
  generalize StableHlo.after hostOps0_1 (StableHlo.after hostOps0 (W0 m ρ c)) = V2 at e14 e3 e6 ⊢
  after_results_simp
  rw [e14, e3, e6]
  rfl

theorem f3_v31 : W3 (F := Ideal) m ρ c (Proc.devRef .tc main_v31) = val_main_v31 (F := Ideal) x3 := by
  show StableHlo.after hostOps0_2 (StableHlo.after hostOps0_1 (StableHlo.after hostOps0 (W0 m ρ c))) (Proc.devRef .tc main_v31) = _
  after_results_simp <;> rfl

/-! ## Layer 1 -/

theorem f4_v32 : W4 (F := Ideal) m ρ c (Proc.devRef .tc main_v32) = val_main_v32 (F := Ideal) x0 x3 := by
  refine (W4_arr m ρ c 2).trans ((Region0.final (V3 m ρ) c).trans ?_)
  show prodArr (W3 m ρ c (Proc.devRef .tc main_arg0)) (W3 m ρ c (Proc.devRef .tc main_v31)) = _
  rw [k3_main_arg0 m ρ c, f3_v31 m ρ c]
  exact (ref_mm1 _ _).symm

theorem f5_v45 : W5 (F := Ideal) m ρ c (Proc.devRef .tc main_v45) = val_main_v45 (F := Ideal) x0 x1 x3 := by
  show StableHlo.after hostOps1 (W4 m ρ c) (Proc.devRef .tc main_v45) = _
  after_results_simp
  rw [(k4_main_v3 m ρ c).trans (f3_v3 m ρ c), (k4_main_v6 m ρ c).trans (f3_v6 m ρ c), (k4_main_v29 m ρ c).trans (f3_v29 m ρ c), f4_v32 m ρ c]
  rfl

theorem f5_v56 : W5 (F := Ideal) m ρ c (Proc.devRef .tc main_v56) = rowArr (val_main_v47 (F := Ideal) x4) := by
  show StableHlo.after hostOps1 (W4 m ρ c) (Proc.devRef .tc main_v56) = _
  after_results_simp
  rw [k4_main_arg4 m ρ c]
  refine Eq.trans ?_ (shapeCast_row (val_main_v47 (F := Ideal) x4) shapeCasts_S128_S1x128)
  rfl

theorem f5_v57 : W5 (F := Ideal) m ρ c (Proc.devRef .tc main_v57) = rowArr (val_main_v52 (F := Ideal) x7) := by
  show StableHlo.after hostOps1 (W4 m ρ c) (Proc.devRef .tc main_v57) = _
  after_results_simp
  rw [k4_main_arg7 m ρ c]
  refine Eq.trans ?_ (shapeCast_row (val_main_v52 (F := Ideal) x7) shapeCasts_S128_S1x128)
  rfl

theorem f5_v58 : W5 (F := Ideal) m ρ c (Proc.devRef .tc main_v58) = rowArr (val_main_v57 (F := Ideal) x8) := by
  show StableHlo.after hostOps1 (W4 m ρ c) (Proc.devRef .tc main_v58) = _
  after_results_simp
  rw [k4_main_arg8 m ρ c]
  refine Eq.trans ?_ (shapeCast_row (val_main_v57 (F := Ideal) x8) shapeCasts_S128_S1x128)
  rfl

theorem f5_v59 : W5 (F := Ideal) m ρ c (Proc.devRef .tc main_v59) = rowArr (val_main_v65 (F := Ideal) x5) := by
  show StableHlo.after hostOps1 (W4 m ρ c) (Proc.devRef .tc main_v59) = _
  after_results_simp
  rw [k4_main_arg5 m ρ c]
  refine Eq.trans ?_ (shapeCast_row (val_main_v65 (F := Ideal) x5) shapeCasts_S128_S1x128)
  rfl

theorem f5_v60 : W5 (F := Ideal) m ρ c (Proc.devRef .tc main_v60) = rowArr (val_main_v70 (F := Ideal) x6) := by
  show StableHlo.after hostOps1 (W4 m ρ c) (Proc.devRef .tc main_v60) = _
  after_results_simp
  rw [k4_main_arg6 m ρ c]
  refine Eq.trans ?_ (shapeCast_row (val_main_v70 (F := Ideal) x6) shapeCasts_S128_S1x128)
  rfl

theorem f6_v61 : W6 (F := Ideal) m ρ c (Proc.devRef .tc main_v61) = val_main_v74 (F := Ideal) x0 x1 x3 x4 x5 x6 x7 x8 := by
  refine (W6_arr m ρ c 6).trans ((Region1.final (V5 m ρ) c).trans ?_)
  show bnArr (W5 m ρ c (Proc.devRef .tc main_v45)) (W5 m ρ c (Proc.devRef .tc main_v56)) (W5 m ρ c (Proc.devRef .tc main_v57)) (W5 m ρ c (Proc.devRef .tc main_v58)) (W5 m ρ c (Proc.devRef .tc main_v59)) (W5 m ρ c (Proc.devRef .tc main_v60)) = _
  rw [f5_v45 m ρ c, f5_v56 m ρ c, f5_v57 m ρ c, f5_v58 m ρ c, f5_v59 m ρ c, f5_v60 m ρ c]
  exact (ref_bn1 _ _ _ _ _ _ _ _).symm

/-! ## Layer 2 -/

theorem f7_v63 : W7 (F := Ideal) m ρ c (Proc.devRef .tc main_v63) = val_main_v76 (F := Ideal) x3 := by
  show StableHlo.after hostOps2 (W6 m ρ c) (Proc.devRef .tc main_v63) = _
  after_results_simp
  rw [k6_main_arg3 m ρ c]
  rfl

theorem f7_v61 : W7 (F := Ideal) m ρ c (Proc.devRef .tc main_v61) = val_main_v74 (F := Ideal) x0 x1 x3 x4 x5 x6 x7 x8 := (k7_main_v61 m ρ c).trans (f6_v61 m ρ c)

theorem f8_v64 : W8 (F := Ideal) m ρ c (Proc.devRef .tc main_v64) = val_main_v77 (F := Ideal) x0 x1 x3 x4 x5 x6 x7 x8 := by
  refine (W8_arr m ρ c 2).trans ((Region2.final (V7 m ρ) c).trans ?_)
  show prodArr (W7 m ρ c (Proc.devRef .tc main_v61)) (W7 m ρ c (Proc.devRef .tc main_v63)) = _
  rw [f7_v61 m ρ c, f7_v63 m ρ c]
  exact (ref_mm2 _ _ _ _ _ _ _ _).symm

theorem f9_v77 : W9 (F := Ideal) m ρ c (Proc.devRef .tc main_v77) = val_main_v90 (F := Ideal) x0 x1 x3 x4 x5 x6 x7 x8 := by
  show StableHlo.after hostOps3 (W8 m ρ c) (Proc.devRef .tc main_v77) = _
  after_results_simp
  rw [(k8_main_v3 m ρ c).trans (f3_v3 m ρ c), (k8_main_v6 m ρ c).trans (f3_v6 m ρ c), (k8_main_v29 m ρ c).trans (f3_v29 m ρ c), f8_v64 m ρ c]
  rfl

theorem f9_v88 : W9 (F := Ideal) m ρ c (Proc.devRef .tc main_v88) = rowArr (val_main_v92 (F := Ideal) x4) := by
  show StableHlo.after hostOps3 (W8 m ρ c) (Proc.devRef .tc main_v88) = _
  after_results_simp
  rw [k8_main_arg4 m ρ c]
  refine Eq.trans ?_ (shapeCast_row (val_main_v92 (F := Ideal) x4) shapeCasts_S128_S1x128)
  rfl

theorem f9_v89 : W9 (F := Ideal) m ρ c (Proc.devRef .tc main_v89) = rowArr (val_main_v97 (F := Ideal) x7) := by
  show StableHlo.after hostOps3 (W8 m ρ c) (Proc.devRef .tc main_v89) = _
  after_results_simp
  rw [k8_main_arg7 m ρ c]
  refine Eq.trans ?_ (shapeCast_row (val_main_v97 (F := Ideal) x7) shapeCasts_S128_S1x128)
  rfl

theorem f9_v90 : W9 (F := Ideal) m ρ c (Proc.devRef .tc main_v90) = rowArr (val_main_v102 (F := Ideal) x8) := by
  show StableHlo.after hostOps3 (W8 m ρ c) (Proc.devRef .tc main_v90) = _
  after_results_simp
  rw [k8_main_arg8 m ρ c]
  refine Eq.trans ?_ (shapeCast_row (val_main_v102 (F := Ideal) x8) shapeCasts_S128_S1x128)
  rfl

theorem f9_v91 : W9 (F := Ideal) m ρ c (Proc.devRef .tc main_v91) = rowArr (val_main_v110 (F := Ideal) x5) := by
  show StableHlo.after hostOps3 (W8 m ρ c) (Proc.devRef .tc main_v91) = _
  after_results_simp
  rw [k8_main_arg5 m ρ c]
  refine Eq.trans ?_ (shapeCast_row (val_main_v110 (F := Ideal) x5) shapeCasts_S128_S1x128)
  rfl

theorem f9_v92 : W9 (F := Ideal) m ρ c (Proc.devRef .tc main_v92) = rowArr (val_main_v115 (F := Ideal) x6) := by
  show StableHlo.after hostOps3 (W8 m ρ c) (Proc.devRef .tc main_v92) = _
  after_results_simp
  rw [k8_main_arg6 m ρ c]
  refine Eq.trans ?_ (shapeCast_row (val_main_v115 (F := Ideal) x6) shapeCasts_S128_S1x128)
  rfl

theorem f10_v93 : W10 (F := Ideal) m ρ c (Proc.devRef .tc main_v93) = val_main_v119 (F := Ideal) x0 x1 x3 x4 x5 x6 x7 x8 := by
  refine (W10_arr m ρ c 6).trans ((Region3.final (V9 m ρ) c).trans ?_)
  show bnArr (W9 m ρ c (Proc.devRef .tc main_v77)) (W9 m ρ c (Proc.devRef .tc main_v88)) (W9 m ρ c (Proc.devRef .tc main_v89)) (W9 m ρ c (Proc.devRef .tc main_v90)) (W9 m ρ c (Proc.devRef .tc main_v91)) (W9 m ρ c (Proc.devRef .tc main_v92)) = _
  rw [f9_v77 m ρ c, f9_v88 m ρ c, f9_v89 m ρ c, f9_v90 m ρ c, f9_v91 m ρ c, f9_v92 m ρ c]
  exact (ref_bn2 _ _ _ _ _ _ _ _).symm

/-! ## Layer 3 -/

theorem f11_v95 : W11 (F := Ideal) m ρ c (Proc.devRef .tc main_v95) = val_main_v121 (F := Ideal) x3 := by
  show StableHlo.after hostOps4 (W10 m ρ c) (Proc.devRef .tc main_v95) = _
  after_results_simp
  rw [k10_main_arg3 m ρ c]
  rfl

theorem f11_v93 : W11 (F := Ideal) m ρ c (Proc.devRef .tc main_v93) = val_main_v119 (F := Ideal) x0 x1 x3 x4 x5 x6 x7 x8 := (k11_main_v93 m ρ c).trans (f10_v93 m ρ c)

theorem f12_v96 : W12 (F := Ideal) m ρ c (Proc.devRef .tc main_v96) = val_main_v122 (F := Ideal) x0 x1 x3 x4 x5 x6 x7 x8 := by
  refine (W12_arr m ρ c 2).trans ((Region4.final (V11 m ρ) c).trans ?_)
  show prodArr (W11 m ρ c (Proc.devRef .tc main_v93)) (W11 m ρ c (Proc.devRef .tc main_v95)) = _
  rw [f11_v93 m ρ c, f11_v95 m ρ c]
  exact (ref_mm3 _ _ _ _ _ _ _ _).symm

theorem f13_v109 : W13 (F := Ideal) m ρ c (Proc.devRef .tc main_v109) = val_main_v135 (F := Ideal) x0 x1 x3 x4 x5 x6 x7 x8 := by
  show StableHlo.after hostOps5 (W12 m ρ c) (Proc.devRef .tc main_v109) = _
  after_results_simp
  rw [(k12_main_v3 m ρ c).trans (f3_v3 m ρ c), (k12_main_v6 m ρ c).trans (f3_v6 m ρ c), (k12_main_v29 m ρ c).trans (f3_v29 m ρ c), f12_v96 m ρ c]
  rfl

theorem f13_v120 : W13 (F := Ideal) m ρ c (Proc.devRef .tc main_v120) = rowArr (val_main_v137 (F := Ideal) x4) := by
  show StableHlo.after hostOps5 (W12 m ρ c) (Proc.devRef .tc main_v120) = _
  after_results_simp
  rw [k12_main_arg4 m ρ c]
  refine Eq.trans ?_ (shapeCast_row (val_main_v137 (F := Ideal) x4) shapeCasts_S128_S1x128)
  rfl

theorem f13_v121 : W13 (F := Ideal) m ρ c (Proc.devRef .tc main_v121) = rowArr (val_main_v142 (F := Ideal) x7) := by
  show StableHlo.after hostOps5 (W12 m ρ c) (Proc.devRef .tc main_v121) = _
  after_results_simp
  rw [k12_main_arg7 m ρ c]
  refine Eq.trans ?_ (shapeCast_row (val_main_v142 (F := Ideal) x7) shapeCasts_S128_S1x128)
  rfl

theorem f13_v122 : W13 (F := Ideal) m ρ c (Proc.devRef .tc main_v122) = rowArr (val_main_v147 (F := Ideal) x8) := by
  show StableHlo.after hostOps5 (W12 m ρ c) (Proc.devRef .tc main_v122) = _
  after_results_simp
  rw [k12_main_arg8 m ρ c]
  refine Eq.trans ?_ (shapeCast_row (val_main_v147 (F := Ideal) x8) shapeCasts_S128_S1x128)
  rfl

theorem f13_v123 : W13 (F := Ideal) m ρ c (Proc.devRef .tc main_v123) = rowArr (val_main_v155 (F := Ideal) x5) := by
  show StableHlo.after hostOps5 (W12 m ρ c) (Proc.devRef .tc main_v123) = _
  after_results_simp
  rw [k12_main_arg5 m ρ c]
  refine Eq.trans ?_ (shapeCast_row (val_main_v155 (F := Ideal) x5) shapeCasts_S128_S1x128)
  rfl

theorem f13_v124 : W13 (F := Ideal) m ρ c (Proc.devRef .tc main_v124) = rowArr (val_main_v160 (F := Ideal) x6) := by
  show StableHlo.after hostOps5 (W12 m ρ c) (Proc.devRef .tc main_v124) = _
  after_results_simp
  rw [k12_main_arg6 m ρ c]
  refine Eq.trans ?_ (shapeCast_row (val_main_v160 (F := Ideal) x6) shapeCasts_S128_S1x128)
  rfl

theorem f14_v125 : W14 (F := Ideal) m ρ c (Proc.devRef .tc main_v125) = val_main_v164 (F := Ideal) x0 x1 x3 x4 x5 x6 x7 x8 := by
  refine (W14_arr m ρ c 6).trans ((Region5.final (V13 m ρ) c).trans ?_)
  show bnArr (W13 m ρ c (Proc.devRef .tc main_v109)) (W13 m ρ c (Proc.devRef .tc main_v120)) (W13 m ρ c (Proc.devRef .tc main_v121)) (W13 m ρ c (Proc.devRef .tc main_v122)) (W13 m ρ c (Proc.devRef .tc main_v123)) (W13 m ρ c (Proc.devRef .tc main_v124)) = _
  rw [f13_v109 m ρ c, f13_v120 m ρ c, f13_v121 m ρ c, f13_v122 m ρ c, f13_v123 m ρ c, f13_v124 m ρ c]
  exact (ref_bn3 _ _ _ _ _ _ _ _).symm

/-! ## Pooling and the head -/

theorem f15_v137 : W15 (F := Ideal) m ρ c (Proc.devRef .tc main_v137) = val_main_v176 (F := Ideal) x0 x1 x2 x3 x4 x5 x6 x7 x8 := by
  show StableHlo.after hostOps6 (W14 m ρ c) (Proc.devRef .tc main_v137) = _
  after_results_simp
  rw [k14_main_arg2 m ρ c, f14_v125 m ρ c]
  rfl

theorem f15_v138 : W15 (F := Ideal) m ρ c (Proc.devRef .tc main_v138) = rowArr (n := 64) (α := Elt Ideal .f32) x10 := by
  show StableHlo.after hostOps6 (W14 m ρ c) (Proc.devRef .tc main_v138) = _
  after_results_simp
  rw [k14_main_arg10 m ρ c]
  refine Eq.trans ?_ (shapeCast_row (n := 64) (α := Elt Ideal .f32) x10 shapeCasts_S64_S1x64)
  rfl

theorem f15_v139 : W15 (F := Ideal) m ρ c (Proc.devRef .tc main_v139) = rowArr (n := 10) (α := Elt Ideal .f32) x12 := by
  show StableHlo.after hostOps6 (W14 m ρ c) (Proc.devRef .tc main_v139) = _
  after_results_simp
  rw [k14_main_arg12 m ρ c]
  refine Eq.trans ?_ (shapeCast_row (n := 10) (α := Elt Ideal .f32) x12 shapeCasts_S10_S1x10)
  rfl

/-- THE RESULT: after the run the result buffer holds the reference's last stage of the kernel's own arguments. -/
theorem result : W16 (F := Ideal) m ρ c (Proc.devRef .tc main_v140) = val_main_v185 (F := Ideal) x0 x1 x2 x3 x4 x5 x6 x7 x8 x9 x10 x11 x12 := by
  refine (W16_arr m ρ c 5).trans ((Region6.final (V15 m ρ) c).trans ?_)
  show mlpArr (W15 m ρ c (Proc.devRef .tc main_v137)) (W15 m ρ c (Proc.devRef .tc main_arg9)) (W15 m ρ c (Proc.devRef .tc main_v138)) (W15 m ρ c (Proc.devRef .tc main_arg11)) (W15 m ρ c (Proc.devRef .tc main_v139)) = _
  rw [f15_v137 m ρ c, k15_main_arg9 m ρ c, f15_v138 m ρ c, k15_main_arg11 m ρ c, f15_v139 m ρ c]
  exact (ref_mlp _ _ _ _ _ _ _ _ _ _ _ _ _).symm

end Cert.KernelIdeal.Chain

end
-- ==== Proof.lean ====
/-
  The proof of this certificate's claim: a three-layer graph convolution network — per layer a matrix product, a
  gather–scale–scatter-add aggregation over the edges, and a normalisation with rectifier — pooled per graph and fed to
  a two-layer head, whose matrix products, normalisations and head run as seven kernel launches, against the same
  network written with plain array operations.

  The three frames: both kernel programs' frames are the launch-by-launch frame of the seven launches; the reference's
  is its run with the result dropped. The idealization rewrote nothing, so it preserves the program trivially. The two
  idealized programs end with equal results: the kernel's result buffer after its run holds the last boundary's
  contents (the whole run with every buffer named), which is the reference's last stage of the kernel's arguments
  (the walk along the two programs, boundary by boundary), and the reference's result is that stage of its own
  arguments, which agree with the kernel's. No entry needs to be finite for this: both sides apply the same
  operations in the same association.
-/
import proofs.«127366_j78915729097080_1_alg».proof.Defs
import proofs.«127366_j78915729097080_1_alg».proof.Proof.Gen.Kernel
import proofs.«127366_j78915729097080_1_alg».proof.Proof.Gen.Kernel.Frame
import proofs.«127366_j78915729097080_1_alg».proof.Proof.Gen.KernelIdeal
import proofs.«127366_j78915729097080_1_alg».proof.Proof.Gen.KernelIdeal.Frame
import proofs.«127366_j78915729097080_1_alg».proof.Proof.Gen.ReferenceIdeal
import proofs.«127366_j78915729097080_1_alg».proof.Proof.Gen.Pre_finite_inputs
import proofs.«127366_j78915729097080_1_alg».proof.Proof.RefRunPatched
import proofs.«127366_j78915729097080_1_alg».proof.Proof.RefReadPatched
import proofs.«127366_j78915729097080_1_alg».proof.Proof.KernelRun
import proofs.«127366_j78915729097080_1_alg».proof.Proof.Chain
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- From memories that agree on the thirteen arguments both idealized programs run, and both end with the reference's
    last stage of the kernel's arguments in their result buffer. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W16 m ρ c (Proc.devRef .tc Cert.KernelIdeal.main_v140), Cert.KernelIdeal.Whole.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v185 m' c = Cert.KernelIdeal.Gen.W16 m ρ c (Proc.devRef .tc Cert.KernelIdeal.main_v140)
  rw [Cert.ReferenceIdeal.ReadP.val_main_v185_eq, Cert.KernelIdeal.Chain.result m ρ c]
  obtain ⟨h0, h1, h2, h3, h4, h5, h6, h7, h8, h9, h10, h11, h12⟩ := hagree c
  rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
